-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S16x4 : Shape := ⟨2, ![16, 4]⟩
abbrev S16 : Shape := ⟨1, ![16]⟩
abbrev S10x16x16 : Shape := ⟨3, ![10, 16, 16]⟩
abbrev S10x16 : Shape := ⟨2, ![10, 16]⟩
abbrev S2x16 : Shape := ⟨2, ![2, 16]⟩
abbrev S2 : Shape := ⟨1, ![2]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S16x4 : S_.BroadcastsInDim S16x4 (![] : Fin 0 → Fin S16x4.rank)
  reducesTo_S16x4_S_d0_1 : S16x4.ReducesTo [0, 1] S_
  bcast_S_S16 : S_.BroadcastsInDim S16 (![] : Fin 0 → Fin S16.rank)
  reducesTo_S16_S_d0 : S16.ReducesTo [0] S_
  bcast_S_S10x16x16 : S_.BroadcastsInDim S10x16x16 (![] : Fin 0 → Fin S10x16x16.rank)
  reducesTo_S10x16x16_S_d0_1_2 : S10x16x16.ReducesTo [0, 1, 2] S_
  bcast_S_S10x16 : S_.BroadcastsInDim S10x16 (![] : Fin 0 → Fin S10x16.rank)
  reducesTo_S10x16_S_d0_1 : S10x16.ReducesTo [0, 1] S_
  bcast_S_S2x16 : S_.BroadcastsInDim S2x16 (![] : Fin 0 → Fin S2x16.rank)
  reducesTo_S2x16_S_d0_1 : S2x16.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S10x16 .f32) (main_arg5 : FVec F S2x16 .f32) (main_arg6 : FVec F S2 .f32) (main_v13 : IVec S_ 1) (main_v16 : IVec S10x16x16 1) : IVec S_ 1 :=
  let main_c_5 : IVec S_ 1 := constantI S_ 1 1#1
  let main_v17 : IVec S_ 1 := (fun x v => Host.reduce IntOp.andi x v reducesTo_S10x16x16_S_d0_1_2 h_S_) main_v16 main_c_5
  let main_v18 : IVec S_ 1 := andi main_v13 main_v17
  let main_v19 : FVec F S10x16 .f32 := Host.absf main_arg4
  let main_cst_6 : FVec F S_ .f32 := constant S_ .f32 0x7F800000#32
  let main_v20 : FVec F S10x16 .f32 := broadcastInDim S10x16 ![] bcast_S_S10x16 main_cst_6
  let main_v21 : IVec S10x16 1 := cmpf .olt main_v19 main_v20
  let main_c_7 : IVec S_ 1 := constantI S_ 1 1#1
  let main_v22 : IVec S_ 1 := (fun x v => Host.reduce IntOp.andi x v reducesTo_S10x16_S_d0_1 h_S_) main_v21 main_c_7
  let main_v23 : IVec S_ 1 := andi main_v18 main_v22
  let main_v24 : FVec F S2x16 .f32 := Host.absf main_arg5
  let main_cst_8 : FVec F S_ .f32 := constant S_ .f32 0x7F800000#32
  let main_v25 : FVec F S2x16 .f32 := broadcastInDim S2x16 ![] bcast_S_S2x16 main_cst_8
  let main_v26 : IVec S2x16 1 := cmpf .olt main_v24 main_v25
  let main_c_9 : IVec S_ 1 := constantI S_ 1 1#1
  let main_v27 : IVec S_ 1 := (fun x v => Host.reduce IntOp.andi x v reducesTo_S2x16_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S2097152x4 .f32) (main_arg1 : FVec F S16x4 .f32) (main_arg2 : FVec F S16 .f32) (main_arg3 : FVec F S10x16x16 .f32) (main_arg4 : FVec F S10x16 .f32) (main_arg5 : FVec F S2x16 .f32) (main_arg6 : FVec F S2 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S16x4 .f32 := Host.absf main_arg1
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S10x16x16 .f32 := Host.absf main_arg3
  let main_cst_4 : FVec F S_ .f32 := constant S_ .f32 0x7F800000#32
  let main_v15 : FVec F S10x16x16 .f32 := broadcastInDim S10x16x16 ![] bcast_S_S10x16x16 main_cst_4
  let main_v16 : IVec S10x16x16 1 := cmpf .olt main_v14 main_v15
  fn_part1 (F := F) main_arg4 main_arg5 main_arg6 main_v13 main_v16
-- ==== Kernel.lean ====
abbrev S2097152x4 : Shape := ⟨2, ![2097152, 4]⟩
abbrev S16x4 : Shape := ⟨2, ![16, 4]⟩
abbrev S16 : Shape := ⟨1, ![16]⟩
abbrev S10x16x16 : Shape := ⟨3, ![10, 16, 16]⟩
abbrev S10x16 : Shape := ⟨2, ![10, 16]⟩
abbrev S2x16 : Shape := ⟨2, ![2, 16]⟩
abbrev S2 : Shape := ⟨1, ![2]⟩
abbrev S16x16 : Shape := ⟨2, ![16, 16]⟩
abbrev S_ : Shape := ⟨0, ![]⟩
abbrev S4x16 : Shape := ⟨2, ![4, 16]⟩
abbrev S16x1x16x1 : Shape := ⟨4, ![16, 1, 16, 1]⟩
abbrev S1x4x1x16 : Shape := ⟨4, ![1, 4, 1, 16]⟩
abbrev S16x4x16x16 : Shape := ⟨4, ![16, 4, 16, 16]⟩
abbrev S64x256 : Shape := ⟨2, ![64, 256]⟩
abbrev S10x1x16x1x16 : Shape := ⟨5, ![10, 1, 16, 1, 16]⟩
abbrev S1x16x1x16x1 : Shape := ⟨5, ![1, 16, 1, 16, 1]⟩
abbrev S10x16x16x16x16 : Shape := ⟨5, ![10, 16, 16, 16, 16]⟩
abbrev S10x256x256 : Shape := ⟨3, ![10, 256, 256]⟩
abbrev S16x2 : Shape := ⟨2, ![16, 2]⟩
abbrev S1x16x1x2 : Shape := ⟨4, ![1, 16, 1, 2]⟩
abbrev S16x16x16x2 : Shape := ⟨4, ![16, 16, 16, 2]⟩
abbrev S256x32 : Shape := ⟨2, ![256, 32]⟩
abbrev S256x128 : Shape := ⟨2, ![256, 128]⟩
abbrev S1x16 : Shape := ⟨2, ![1, 16]⟩
abbrev S256 : Shape := ⟨1, ![256]⟩
abbrev S1x10x1x16 : Shape := ⟨4, ![1, 10, 1, 16]⟩
abbrev S1x10x16x16 : Shape := ⟨4, ![1, 10, 16, 16]⟩
abbrev S10x256 : Shape := ⟨2, ![10, 256]⟩
abbrev S1x2 : Shape := ⟨2, ![1, 2]⟩
abbrev S32 : Shape := ⟨1, ![32]⟩
abbrev S128 : Shape := ⟨1, ![128]⟩
abbrev S131072x64 : Shape := ⟨2, ![131072, 64]⟩
abbrev S131072x128 : Shape := ⟨2, ![131072, 128]⟩
abbrev S4096x64 : Shape := ⟨2, ![4096, 64]⟩
abbrev S4096x128 : Shape := ⟨2, ![4096, 128]⟩
abbrev S4096x256 : Shape := ⟨2, ![4096, 256]⟩
abbrev S1x256 : Shape := ⟨2, ![1, 256]⟩
abbrev S1x256x256 : Shape := ⟨3, ![1, 256, 256]⟩
abbrev S256x256 : Shape := ⟨2, ![256, 256]⟩
abbrev S1x128 : Shape := ⟨2, ![1, 128]⟩
abbrev S131072x32 : Shape := ⟨2, ![131072, 32]⟩
abbrev S2097152x2 : Shape := ⟨2, ![2097152, 2]⟩

abbrev nBuf : Space → Nat
  | .hbm => 58
  | .vmem => 10
  | .smem => 0
  | _ => 0

abbrev bufTy : (tb : Table) → Fin (tcTables nBuf tb) → BufTy
  | .hbm, ⟨0, _⟩ => ⟨S2097152x4, .f32⟩
  | .hbm, ⟨1, _⟩ => ⟨S16x4, .f32⟩
  | .hbm, ⟨2, _⟩ => ⟨S16, .f32⟩
  | .hbm, ⟨3, _⟩ => ⟨S10x16x16, .f32⟩
  | .hbm, ⟨4, _⟩ => ⟨S10x16, .f32⟩
  | .hbm, ⟨5, _⟩ => ⟨S2x16, .f32⟩
  | .hbm, ⟨6, _⟩ => ⟨S2, .f32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S16x16, .i1⟩
  | .hbm, ⟨13, _⟩ => ⟨S16x16, .f32⟩
  | .hbm, ⟨14, _⟩ => ⟨S4x16, .f32⟩
  | .hbm, ⟨15, _⟩ => ⟨S16x1x16x1, .f32⟩
  | .hbm, ⟨16, _⟩ => ⟨S1x4x1x16, .f32⟩
  | .hbm, ⟨17, _⟩ => ⟨S16x4x16x16, .f32⟩
  | .hbm, ⟨18, _⟩ => ⟨S16x4x16x16, .f32⟩
  | .hbm, ⟨19, _⟩ => ⟨S16x4x16x16, .f32⟩
  | .hbm, ⟨20, _⟩ => ⟨S64x256, .f32⟩
  | .hbm, ⟨21, _⟩ => ⟨S64x256, .bf16⟩
  | .hbm, ⟨22, _⟩ => ⟨S10x16x16, .f32⟩
  | .hbm, ⟨23, _⟩ => ⟨S16x1x16x1, .f32⟩
  | .hbm, ⟨24, _⟩ => ⟨S10x1x16x1x16, .f32⟩
  | .hbm, ⟨25, _⟩ => ⟨S1x16x1x16x1, .f32⟩
  | .hbm, ⟨26, _⟩ => ⟨S10x16x16x16x16, .f32⟩
  | .hbm, ⟨27, _⟩ => ⟨S10x16x16x16x16, .f32⟩
  | .hbm, ⟨28, _⟩ => ⟨S10x16x16x16x16, .f32⟩
  | .hbm, ⟨29, _⟩ => ⟨S10x256x256, .f32⟩
  | .hbm, ⟨30, _⟩ => ⟨S10x256x256, .bf16⟩
  | .hbm, ⟨31, _⟩ => ⟨S16x2, .f32⟩
  | .hbm, ⟨32, _⟩ => ⟨S16x1x16x1, .f32⟩
  | .hbm, ⟨33, _⟩ => ⟨S1x16x1x2, .f32⟩
  | .hbm, ⟨34, _⟩ => ⟨S16x16x16x2, .f32⟩
  | .hbm, ⟨35, _⟩ => ⟨S16x16x16x2, .f32⟩
  | .hbm, ⟨36, _⟩ => ⟨S16x16x16x2, .f32⟩
  | .hbm, ⟨37, _⟩ => ⟨S256x32, .f32⟩
  | .hbm, ⟨38, _⟩ => ⟨S_, .i32⟩
  | .hbm, ⟨39, _⟩ => ⟨S_, .f32⟩
  | .hbm, ⟨40, _⟩ => ⟨S256x128, .f32⟩
  | .hbm, ⟨41, _⟩ => ⟨S256x128, .bf16⟩
  | .hbm, ⟨42, _⟩ => ⟨S1x16, .f32⟩
  | .hbm, ⟨43, _⟩ => ⟨S16x16, .f32⟩
  | .hbm, ⟨44, _⟩ => ⟨S256, .f32⟩
  | .hbm, ⟨45, _⟩ => ⟨S1x10x1x16, .f32⟩
  | .hbm, ⟨46, _⟩ => ⟨S1x10x16x16, .f32⟩
  | .hbm, ⟨47, _⟩ => ⟨S10x256, .f32⟩
  | .hbm, ⟨48, _⟩ => ⟨S1x2, .f32⟩
  | .hbm, ⟨49, _⟩ => ⟨S16x2, .f32⟩
  | .hbm, ⟨50, _⟩ => ⟨S32, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S131072x64, .f32⟩
  | .hbm, ⟨55, _⟩ => ⟨S131072x128, .f32⟩
  | .hbm, ⟨56, _⟩ => ⟨S131072x32, .f32⟩
  | .hbm, ⟨57, _⟩ => ⟨S2097152x2, .f32⟩
  | .local _ .vmem, ⟨0, _⟩ => ⟨S4096x64, .f32⟩
  | .local _ .vmem, ⟨1, _⟩ => ⟨S4096x64, .f32⟩
  | .local _ .vmem, ⟨2, _⟩ => ⟨S64x256, .bf16⟩
  | .local _ .vmem, ⟨3, _⟩ => ⟨S256, .f32⟩
  | .local _ .vmem, ⟨4, _⟩ => ⟨S10x256x256, .bf16⟩
  | .local _ .vmem, ⟨5, _⟩ => ⟨S10x256, .f32⟩
  | .local _ .vmem, ⟨6, _⟩ => ⟨S256x128, .bf16⟩
  | .local _ .vmem, ⟨7, _⟩ => ⟨S128, .f32⟩
  | .local _ .vmem, ⟨8, _⟩ => ⟨S4096x128, .f32⟩
  | .local _ .vmem, ⟨9, _⟩ => ⟨S4096x128, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v13 : Ref sig .tc := ⟨.hbm, 37, rfl⟩
abbrev main_c_0 : Ref sig .tc := ⟨.hbm, 38, rfl⟩
abbrev main_call3_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_1 : Ref sig .tc := ⟨.hbm, 51, rfl⟩
abbrev main_call4_v0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16x16 : S_.BroadcastsInDim S16x16 (![] : Fin 0 → Fin S16x16.rank)
  transposes_S16x4_S4x16_1_0 : S16x4.Transposes [1, 0] S4x16
  bcast_S16x16_S16x1x16x1_0_2 : S16x16.BroadcastsInDim S16x1x16x1 (![0, 2] : Fin 2 → Fin S16x1x16x1.rank)
  bcast_S4x16_S1x4x1x16_1_3 : S4x16.BroadcastsInDim S1x4x1x16 (![1, 3] : Fin 2 → Fin S1x4x1x16.rank)
  bcast_S16x1x16x1_S16x4x16x16_0_1_2_3 : S16x1x16x1.BroadcastsInDim S16x4x16x16 (![0, 1, 2, 3] : Fin 4 → Fin S16x4x16x16.rank)
  bcast_S1x4x1x16_S16x4x16x16_0_1_2_3 : S1x4x1x16.BroadcastsInDim S16x4x16x16 (![0, 1, 2, 3] : Fin 4 → Fin S16x4x16x16.rank)
  shapeCasts_S16x4x16x16_S64x256 : S16x4x16x16.ShapeCasts S64x256
  bitsLt_bf16_f32 : FTy.bits .bf16 < FTy.bits .f32
  transposes_S10x16x16_S10x16x16_0_2_1 : S10x16x16.Transposes [0, 2, 1] S10x16x16
  bcast_S10x16x16_S10x1x16x1x16_0_2_4 : S10x16x16.BroadcastsInDim S10x1x16x1x16 (![0, 2, 4] : Fin 3 → Fin S10x1x16x1x16.rank)
  bcast_S16x1x16x1_S1x16x1x16x1_1_2_3_4 : S16x1x16x1.BroadcastsInDim S1x16x1x16x1 (![1, 2, 3, 4] : Fin 4 → Fin S1x16x1x16x1.rank)
  bcast_S1x16x1x16x1_S10x16x16x16x16_0_1_2_3_4 : S1x16x1x16x1.BroadcastsInDim S10x16x16x16x16 (![0, 1, 2, 3, 4] : Fin 5 → Fin S10x16x16x16x16.rank)
  bcast_S10x1x16x1x16_S10x16x16x16x16_0_1_2_3_4 : S10x1x16x1x16.BroadcastsInDim S10x16x16x16x16 (![0, 1, 2, 3, 4] : Fin 5 → Fin S10x16x16x16x16.rank)
  shapeCasts_S10x16x16x16x16_S10x256x256 : S10x16x16x16x16.ShapeCasts S10x256x256
  transposes_S2x16_S16x2_1_0 : S2x16.Transposes [1, 0] S16x2
  bcast_S16x2_S1x16x1x2_1_3 : S16x2.BroadcastsInDim S1x16x1x2 (![1, 3] : Fin 2 → Fin S1x16x1x2.rank)
  bcast_S16x1x16x1_S16x16x16x2_0_1_2_3 : S16x1x16x1.BroadcastsInDim S16x16x16x2 (![0, 1, 2, 3] : Fin 4 → Fin S16x16x16x2.rank)
  bcast_S1x16x1x2_S16x16x16x2_0_1_2_3 : S1x16x1x2.BroadcastsInDim S16x16x16x2 (![0, 1, 2, 3] : Fin 4 → Fin S16x16x16x2.rank)
  shapeCasts_S16x16x16x2_S256x32 : S16x16x16x2.ShapeCasts S256x32
  pads_S256x32_S256x128_000_0960 : S256x32.Pads (![0, 0] : Fin 2 → Nat) ![0, 96] ![0, 0] S256x128
  h_S_ : 0 < S_.numel
  shapeCasts_S16_S1x16 : S16.ShapeCasts S1x16
  bcast_S1x16_S16x16_0_1 : S1x16.BroadcastsInDim S16x16 (![0, 1] : Fin 2 → Fin S16x16.rank)
  shapeCasts_S16x16_S256 : S16x16.ShapeCasts S256
  shapeCasts_S10x16_S1x10x1x16 : S10x16.ShapeCasts S1x10x1x16
  bcast_S1x10x1x16_S1x10x16x16_0_1_2_3 : S1x10x1x16.BroadcastsInDim S1x10x16x16 (![0, 1, 2, 3] : Fin 4 → Fin S1x10x16x16.rank)
  shapeCasts_S1x10x16x16_S10x256 : S1x10x16x16.ShapeCasts S10x256
  shapeCasts_S2_S1x2 : S2.ShapeCasts S1x2
  bcast_S1x2_S16x2_0_1 : S1x2.BroadcastsInDim S16x2 (![0, 1] : Fin 2 → Fin S16x2.rank)
  shapeCasts_S16x2_S32 : S16x2.ShapeCasts S32
  pads_S32_S128_0960 : S32.Pads (![0] : Fin 1 → Nat) ![96] ![0] S128
  shapeCasts_S2097152x4_S131072x64 : S2097152x4.ShapeCasts S131072x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S10x256x256_S1x256x256_0_0_0 : ∀ a, (![0, 0, 0] : Fin 3 → Nat) a + S1x256x256.size a ≤ S10x256x256.size a
  h_S1x256x256 : 0 < S1x256x256.numel
  shapeCasts_S1x256x256_S256x256 : S1x256x256.ShapeCasts S256x256
  inb_S10x256_S1x256_0_0 : ∀ a, (![0, 0] : Fin 2 → Nat) a + S1x256.size a ≤ S10x256.size a
  h_S1x256 : 0 < S1x256.numel
  shapeCasts_S1x256_S256 : S1x256.ShapeCasts S256
  inb_S10x256x256_S1x256x256_1_0_0 : ∀ a, (![1, 0, 0] : Fin 3 → Nat) a + S1x256x256.size a ≤ S10x256x256.size a
  inb_S10x256_S1x256_1_0 : ∀ a, (![1, 0] : Fin 2 → Nat) a + S1x256.size a ≤ S10x256.size a
  inb_S10x256x256_S1x256x256_2_0_0 : ∀ a, (![2, 0, 0] : Fin 3 → Nat) a + S1x256x256.size a ≤ S10x256x256.size a
  inb_S10x256_S1x256_2_0 : ∀ a, (![2, 0] : Fin 2 → Nat) a + S1x256.size a ≤ S10x256.size a
  inb_S10x256x256_S1x256x256_3_0_0 : ∀ a, (![3, 0, 0] : Fin 3 → Nat) a + S1x256x256.size a ≤ S10x256x256.size a
  inb_S10x256_S1x256_3_0 : ∀ a, (![3, 0] : Fin 2 → Nat) a + S1x256.size a ≤ S10x256.size a
  inb_S10x256x256_S1x256x256_4_0_0 : ∀ a, (![4, 0, 0] : Fin 3 → Nat) a + S1x256x256.size a ≤ S10x256x256.size a
  inb_S10x256_S1x256_4_0 : ∀ a, (![4, 0] : Fin 2 → Nat) a + S1x256.size a ≤ S10x256.size a
  inb_S10x256x256_S1x256x256_5_0_0 : ∀ a, (![5, 0, 0] : Fin 3 → Nat) a + S1x256x256.size a ≤ S10x256x256.size a
  inb_S10x256_S1x256_5_0 : ∀ a, (![5, 0] : Fin 2 → Nat) a + S1x256.size a ≤ S10x256.size a
  inb_S10x256x256_S1x256x256_6_0_0 : ∀ a, (![6, 0, 0] : Fin 3 → Nat) a + S1x256x256.size a ≤ S10x256x256.size a
  inb_S10x256_S1x256_6_0 : ∀ a, (![6, 0] : Fin 2 → Nat) a + S1x256.size a ≤ S10x256.size a
  inb_S10x256x256_S1x256x256_7_0_0 : ∀ a, (![7, 0, 0] : Fin 3 → Nat) a + S1x256x256.size a ≤ S10x256x256.size a
  inb_S10x256_S1x256_7_0 : ∀ a, (![7, 0] : Fin 2 → Nat) a + S1x256.size a ≤ S10x256.size a
  inb_S10x256x256_S1x256x256_8_0_0 : ∀ a, (![8, 0, 0] : Fin 3 → Nat) a + S1x256x256.size a ≤ S10x256x256.size a
  inb_S10x256_S1x256_8_0 : ∀ a, (![8, 0] : Fin 2 → Nat) a + S1x256.size a ≤ S10x256.size a
  inb_S10x256x256_S1x256x256_9_0_0 : ∀ a, (![9, 0, 0] : Fin 3 → Nat) a + S1x256x256.size a ≤ S10x256x256.size a
  inb_S10x256_S1x256_9_0 : ∀ a, (![9, 0] : Fin 2 → Nat) a + S1x256.size a ≤ S10x256.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S131072x128_S131072x32_0_0 : S131072x128.Slices ![0, 0] S131072x32
  shapeCasts_S131072x32_S2097152x2 : S131072x32.ShapeCasts S2097152x2
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x256x256.size a ≤ S10x256x256.size a
  hwx0_3 : ∀ i : grid0.Coords, EltTy.bits .bf16 = 32 ∨ (Rect.block (s := S10x256x256) S10x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x256.size a ≤ S10x256.size a
  hwx0_4 : ∀ i : grid0.Coords, EltTy.bits .f32 = 32 ∨ (Rect.block (s := S10x256) S10x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S131072x128.size a
  hwx0_7 : ∀ i : grid0.Coords, EltTy.bits .f32 = 32 ∨ (Rect.block (s := S131072x128) S4096x128.size (cc0_transform_7 i) (hinb0_7 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v26) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S10x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S16x4 : Shape := ⟨2, ![16, 4]⟩
abbrev S16 : Shape := ⟨1, ![16]⟩
abbrev S10x16x16 : Shape := ⟨3, ![10, 16, 16]⟩
abbrev S10x16 : Shape := ⟨2, ![10, 16]⟩
abbrev S2x16 : Shape := ⟨2, ![2, 16]⟩
abbrev S2 : Shape := ⟨1, ![2]⟩
abbrev S4x16 : Shape := ⟨2, ![4, 16]⟩
abbrev S2097152x16 : Shape := ⟨2, ![2097152, 16]⟩
abbrev S1x16 : Shape := ⟨2, ![1, 16]⟩
abbrev S_ : Shape := ⟨0, ![]⟩
abbrev S1x16x16 : Shape := ⟨3, ![1, 16, 16]⟩
abbrev S16x16 : Shape := ⟨2, ![16, 16]⟩
abbrev S16x2 : Shape := ⟨2, ![16, 2]⟩
abbrev S2097152x2 : Shape := ⟨2, ![2097152, 2]⟩
abbrev S1x2 : Shape := ⟨2, ![1, 2]⟩

abbrev nBuf : Space → Nat
  | .hbm => 145
  | .vmem => 0
  | .smem => 0
  | _ => 0

abbrev hbmTy0_0 (i : Nat) : BufTy := match i % 128 with
  | 0 => ⟨S2097152x4, .f32⟩
  | 1 => ⟨S16x4, .f32⟩
  | 2 => ⟨S16, .f32⟩
  | 3 => ⟨S10x16x16, .f32⟩
  | 4 => ⟨S10x16, .f32⟩
  | 5 => ⟨S2x16, .f32⟩
  | 6 => ⟨S2, .f32⟩
  | 7 => ⟨S4x16, .f32⟩
  | 8 => ⟨S2097152x16, .f32⟩
  | 9 => ⟨S1x16, .f32⟩
  | 10 => ⟨S2097152x16, .f32⟩
  | 11 => ⟨S2097152x16, .f32⟩
  | 12 => ⟨S_, .f32⟩
  | 13 => ⟨S2097152x16, .f32⟩
  | 14 => ⟨S2097152x16, .f32⟩
  | 15 => ⟨S1x16x16, .f32⟩
  | 16 => ⟨S16x16, .f32⟩
  | 17 => ⟨S1x16, .f32⟩
  | 18 => ⟨S16, .f32⟩
  | 19 => ⟨S1x16x16, .f32⟩
  | 20 => ⟨S16x16, .f32⟩
  | 21 => ⟨S1x16, .f32⟩
  | 22 => ⟨S16, .f32⟩
  | 23 => ⟨S16x16, .f32⟩
  | 24 => ⟨S2097152x16, .f32⟩
  | 25 => ⟨S1x16, .f32⟩
  | 26 => ⟨S2097152x16, .f32⟩
  | 27 => ⟨S2097152x16, .f32⟩
  | 28 => ⟨S_, .f32⟩
  | 29 => ⟨S2097152x16, .f32⟩
  | 30 => ⟨S2097152x16, .f32⟩
  | 31 => ⟨S16x16, .f32⟩
  | 32 => ⟨S2097152x16, .f32⟩
  | 33 => ⟨S1x16, .f32⟩
  | 34 => ⟨S2097152x16, .f32⟩
  | 35 => ⟨S2097152x16, .f32⟩
  | 36 => ⟨S2097152x16, .f32⟩
  | 37 => ⟨S_, .f32⟩
  | 38 => ⟨S2097152x16, .f32⟩
  | 39 => ⟨S2097152x16, .f32⟩
  | 40 => ⟨S1x16x16, .f32⟩
  | 41 => ⟨S16x16, .f32⟩
  | 42 => ⟨S1x16, .f32⟩
  | 43 => ⟨S16, .f32⟩
  | 44 => ⟨S1x16x16, .f32⟩
  | 45 => ⟨S16x16, .f32⟩
  | 46 => ⟨S1x16, .f32⟩
  | 47 => ⟨S16, .f32⟩
  | 48 => ⟨S16x16, .f32⟩
  | 49 => ⟨S2097152x16, .f32⟩
  | 50 => ⟨S1x16, .f32⟩
  | 51 => ⟨S2097152x16, .f32⟩
  | 52 => ⟨S2097152x16, .f32⟩
  | 53 => ⟨S_, .f32⟩
  | 54 => ⟨S2097152x16, .f32⟩
  | 55 => ⟨S2097152x16, .f32⟩
  | 56 => ⟨S16x16, .f32⟩
  | 57 => ⟨S2097152x16, .f32⟩
  | 58 => ⟨S1x16, .f32⟩
  | 59 => ⟨S2097152x16, .f32⟩
  | 60 => ⟨S2097152x16, .f32⟩
  | 61 => ⟨S2097152x16, .f32⟩
  | 62 => ⟨S_, .f32⟩
  | 63 => ⟨S2097152x16, .f32⟩
  | 64 => ⟨S2097152x16, .f32⟩
  | 65 => ⟨S1x16x16, .f32⟩
  | 66 => ⟨S16x16, .f32⟩
  | 67 => ⟨S1x16, .f32⟩
  | 68 => ⟨S16, .f32⟩
  | 69 => ⟨S1x16x16, .f32⟩
  | 70 => ⟨S16x16, .f32⟩
  | 71 => ⟨S1x16, .f32⟩
  | 72 => ⟨S16, .f32⟩
  | 73 => ⟨S16x16, .f32⟩
  | 74 => ⟨S2097152x16, .f32⟩
  | 75 => ⟨S1x16, .f32⟩
  | 76 => ⟨S2097152x16, .f32⟩
  | 77 => ⟨S2097152x16, .f32⟩
  | 78 => ⟨S_, .f32⟩
  | 79 => ⟨S2097152x16, .f32⟩
  | 80 => ⟨S2097152x16, .f32⟩
  | 81 => ⟨S16x16, .f32⟩
  | 82 => ⟨S2097152x16, .f32⟩
  | 83 => ⟨S1x16, .f32⟩
  | 84 => ⟨S2097152x16, .f32⟩
  | 85 => ⟨S2097152x16, .f32⟩
  | 86 => ⟨S2097152x16, .f32⟩
  | 87 => ⟨S_, .f32⟩
  | 88 => ⟨S2097152x16, .f32⟩
  | 89 => ⟨S2097152x16, .f32⟩
  | 90 => ⟨S1x16x16, .f32⟩
  | 91 => ⟨S16x16, .f32⟩
  | 92 => ⟨S1x16, .f32⟩
  | 93 => ⟨S16, .f32⟩
  | 94 => ⟨S1x16x16, .f32⟩
  | 95 => ⟨S16x16, .f32⟩
  | 96 => ⟨S1x16, .f32⟩
  | 97 => ⟨S16, .f32⟩
  | 98 => ⟨S16x16, .f32⟩
  | 99 => ⟨S2097152x16, .f32⟩
  | 100 => ⟨S1x16, .f32⟩
  | 101 => ⟨S2097152x16, .f32⟩
  | 102 => ⟨S2097152x16, .f32⟩
  | 103 => ⟨S_, .f32⟩
  | 104 => ⟨S2097152x16, .f32⟩
  | 105 => ⟨S2097152x16, .f32⟩
  | 106 => ⟨S16x16, .f32⟩
  | 107 => ⟨S2097152x16, .f32⟩
  | 108 => ⟨S1x16, .f32⟩
  | 109 => ⟨S2097152x16, .f32⟩
  | 110 => ⟨S2097152x16, .f32⟩
  | 111 => ⟨S2097152x16, .f32⟩
  | 112 => ⟨S_, .f32⟩
  | 113 => ⟨S2097152x16, .f32⟩
  | 114 => ⟨S2097152x16, .f32⟩
  | 115 => ⟨S1x16x16, .f32⟩
  | 116 => ⟨S16x16, .f32⟩
  | 117 => ⟨S1x16, .f32⟩
  | 118 => ⟨S16, .f32⟩
  | 119 => ⟨S1x16x16, .f32⟩
  | 120 => ⟨S16x16, .f32⟩
  | 121 => ⟨S1x16, .f32⟩
  | 122 => ⟨S16, .f32⟩
  | 123 => ⟨S16x16, .f32⟩
  | 124 => ⟨S2097152x16, .f32⟩
  | 125 => ⟨S1x16, .f32⟩
  | 126 => ⟨S2097152x16, .f32⟩
  | 127 => ⟨S2097152x16, .f32⟩
  | _ => ⟨S2097152x4, .f32⟩

abbrev hbmTy0_1 (i : Nat) : BufTy := match i % 128 with
  | 0 => ⟨S_, .f32⟩
  | 1 => ⟨S2097152x16, .f32⟩
  | 2 => ⟨S2097152x16, .f32⟩
  | 3 => ⟨S16x16, .f32⟩
  | 4 => ⟨S2097152x16, .f32⟩
  | 5 => ⟨S1x16, .f32⟩
  | 6 => ⟨S2097152x16, .f32⟩
  | 7 => ⟨S2097152x16, .f32⟩
  | 8 => ⟨S2097152x16, .f32⟩
  | 9 => ⟨S_, .f32⟩
  | 10 => ⟨S2097152x16, .f32⟩
  | 11 => ⟨S2097152x16, .f32⟩
  | 12 => ⟨S16x2, .f32⟩
  | 13 => ⟨S2097152x2, .f32⟩
  | 14 => ⟨S1x2, .f32⟩
  | 15 => ⟨S2097152x2, .f32⟩
  | 16 => ⟨S2097152x2, .f32⟩
  | _ => ⟨S2097152x4, .f32⟩

abbrev hbmTy (i : Nat) : BufTy := match i / 128 with
  | 0 => hbmTy0_0 i
  | 1 => hbmTy0_1 i
  | _ => ⟨S2097152x4, .f32⟩

abbrev bufTy : (tb : Table) → Fin (tcTables nBuf tb) → BufTy
  | .hbm, ⟨i, _⟩ => hbmTy i
  | _, _ => ⟨S2097152x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_cst : Ref sig .tc := ⟨.hbm, 28, rfl⟩
abbrev main_call1_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call2_cst : Ref sig .tc := ⟨.hbm, 37, rfl⟩
abbrev main_call2_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call3_cst : Ref sig .tc := ⟨.hbm, 53, rfl⟩
abbrev main_call3_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call4_cst : Ref sig .tc := ⟨.hbm, 62, rfl⟩
abbrev main_call4_v0 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call5_cst : Ref sig .tc := ⟨.hbm, 78, rfl⟩
abbrev main_call5_v0 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call6_cst : Ref sig .tc := ⟨.hbm, 87, rfl⟩
abbrev main_call6_v0 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_call7_cst : Ref sig .tc := ⟨.hbm, 103, rfl⟩
abbrev main_call7_v0 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_call8_cst : Ref sig .tc := ⟨.hbm, 112, rfl⟩
abbrev main_call8_v0 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_call9_cst : Ref sig .tc := ⟨.hbm, 128, rfl⟩
abbrev main_call9_v0 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_call10_cst : Ref sig .tc := ⟨.hbm, 137, rfl⟩
abbrev main_call10_v0 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩

abbrev nD : Nat := 1
abbrev τ : Topo := Topo.v7x

variable {F : FTy → Type} [FloatOps F]

class Facts₀ : Prop where
  transposes_S16x4_S4x16_1_0 : S16x4.Transposes [1, 0] S4x16
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  bcast_S_S2097152x16 : S_.BroadcastsInDim S2097152x16 (![] : Fin 0 → Fin S2097152x16.rank)
  slices_S10x16x16_S1x16x16_0_0_0 : S10x16x16.Slices ![0, 0, 0] S1x16x16
  shapeCasts_S1x16x16_S16x16 : S1x16x16.ShapeCasts S16x16
  slices_S10x16_S1x16_0_0 : S10x16.Slices ![0, 0] S1x16
  shapeCasts_S1x16_S16 : S1x16.ShapeCasts S16
  slices_S10x16x16_S1x16x16_1_0_0 : S10x16x16.Slices ![1, 0, 0] S1x16x16
  slices_S10x16_S1x16_1_0 : S10x16.Slices ![1, 0] S1x16
  transposes_S16x16_S16x16_1_0 : S16x16.Transposes [1, 0] S16x16
  slices_S10x16x16_S1x16x16_2_0_0 : S10x16x16.Slices ![2, 0, 0] S1x16x16
  slices_S10x16_S1x16_2_0 : S10x16.Slices ![2, 0] S1x16
  slices_S10x16x16_S1x16x16_3_0_0 : S10x16x16.Slices ![3, 0, 0] S1x16x16
  slices_S10x16_S1x16_3_0 : S10x16.Slices ![3, 0] S1x16
  slices_S10x16x16_S1x16x16_4_0_0 : S10x16x16.Slices ![4, 0, 0] S1x16x16
  slices_S10x16_S1x16_4_0 : S10x16.Slices ![4, 0] S1x16
  slices_S10x16x16_S1x16x16_5_0_0 : S10x16x16.Slices ![5, 0, 0] S1x16x16
  slices_S10x16_S1x16_5_0 : S10x16.Slices ![5, 0] S1x16
  slices_S10x16x16_S1x16x16_6_0_0 : S10x16x16.Slices ![6, 0, 0] S1x16x16
  slices_S10x16_S1x16_6_0 : S10x16.Slices ![6, 0] S1x16
  slices_S10x16x16_S1x16x16_7_0_0 : S10x16x16.Slices ![7, 0, 0] S1x16x16
  slices_S10x16_S1x16_7_0 : S10x16.Slices ![7, 0] S1x16
  slices_S10x16x16_S1x16x16_8_0_0 : S10x16x16.Slices ![8, 0, 0] S1x16x16
  slices_S10x16_S1x16_8_0 : S10x16.Slices ![8, 0] S1x16
  slices_S10x16x16_S1x16x16_9_0_0 : S10x16x16.Slices ![9, 0, 0] S1x16x16
  slices_S10x16_S1x16_9_0 : S10x16.Slices ![9, 0] S1x16
  transposes_S2x16_S16x2_1_0 : S2x16.Transposes [1, 0] S16x2
  bcast_S2_S1x2_1 : S2.BroadcastsInDim S1x2 (![1] : Fin 1 → Fin S1x2.rank)
  bcast_S1x2_S2097152x2_0_1 : S1x2.BroadcastsInDim S2097152x2 (![0, 1] : Fin 2 → Fin S2097152x2.rank)
  dot_S2097152x4_S4x16_S2097152x16_1_0_0_1_n_n_wf : DotDims.WF S2097152x4 S4x16 S2097152x16 [1] [0] [0] [1] [] []
  dot_S2097152x16_S16x16_S2097152x16_1_0_0_1_n_n_wf : DotDims.WF S2097152x16 S16x16 S2097152x16 [1] [0] [0] [1] [] []
  dot_S2097152x16_S16x2_S2097152x2_1_0_0_1_n_n_wf : DotDims.WF S2097152x16 S16x2 S2097152x2 [1] [0] [0] [1] [] []

variable [Facts₀]

def dot_S2097152x4_S4x16_S2097152x16_1_0_0_1_n_n : DotDims S2097152x4 S4x16 S2097152x16 where
  lhsContracting := [1]
  rhsContracting := [0]
  lhsNonContracting := [0]
  rhsNonContracting := [1]
  lhsBatch := []
  rhsBatch := []
  wf := dot_S2097152x4_S4x16_S2097152x16_1_0_0_1_n_n_wf
def dot_S2097152x16_S16x16_S2097152x16_1_0_0_1_n_n : DotDims S2097152x16 S16x16 S2097152x16 where
  lhsContracting := [1]
  rhsContracting := [0]
  lhsNonContracting := [0]
  rhsNonContracting := [1]
  lhsBatch := []
  rhsBatch := []
  wf := dot_S2097152x16_S16x16_S2097152x16_1_0_0_1_n_n_wf
def dot_S2097152x16_S16x2_S2097152x2_1_0_0_1_n_n : DotDims S2097152x16 S16x2 S2097152x2 where
  lhsContracting := [1]
  rhsContracting := [0]
  lhsNonContracting := [0]
  rhsNonContracting := [1]
  lhsBatch := []
  rhsBatch := []
  wf := dot_S2097152x16_S16x2_S2097152x2_1_0_0_1_n_n_wf

class Facts : Prop extends Facts₀ where

variable [Facts]
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibDenseRow.lean ====
/-
  A dense layer as a kernel body writes it, read at an entry, at the extended reals.

  `jnp.dot(x, W) + b` inside a kernel is a matrix product accumulated into a zero array, plus the bias vector `[N]`
  viewed as the one row `[1, N]` and repeated over the `M` rows. At `(r, e)` the product is the sum over
  `k : Fin K` of `x (r, k) · W (k, e)` and the repeated bias is `b e`, whatever the sizes.
-/
import Idealize.ShloMosaic.PureOps.Ideal.Laws
import Idealize.ShloMosaic.Lib.ValueIdx
import Idealize.ShloMosaic.Lib.Pipeline.Value
import proofs.«155588_j40321152975542_2_alg».proof.Proof.LibDotSum

noncomputable section

namespace Cert.LibDenseRow

open Idealize.ShloMosaic Idealize.ShloMosaic.ValueIdx

/-- A vector `[N]` viewed as the row `[1, N]` and repeated over `M` rows reads, at `(r, e)`, its entry `e`. -/
theorem rowBias_apply {M N : Nat} {α : Type} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (r : Fin M) (e : Fin N) :
    broadcastTo ⟨2, ![M, N]⟩ (shapeCast ⟨2, ![1, N]⟩ b h1) h2 (ix2 r e) = b (ix1 e) := by
  refine (broadcastTo_apply _ h2 (ix2 r e) (ix2 (0 : Fin 1) e) fun a => ?_).trans
    (shapeCast_apply b h1 (ix2 (0 : Fin 1) e) (ix1 e) ?_)
  · match a with
    | ⟨0, _⟩ => rfl
    | ⟨1, _⟩ =>
      show e.val = if N = 1 then 0 else e.val
      split
      · have := e.isLt; omega
      · rfl
  · rw [Shape.rowMajor_val_one, Shape.rowMajor_val_two]
    show e.val = 0 * N + e.val
    omega

/-- The product of an `M × K` by a `K × N` array accumulated into the zero array, plus the bias `[N]` repeated over the
    rows, at `(r, e)`: the sum over `k` of `x (r, k) · W (k, e)`, plus `b e`. The six hypotheses on the record of
    dimension numbers compute on a given record. -/
theorem dense_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).ShapeCasts ⟨2, ![1, N]⟩) (h2 : (⟨2, ![1, N]⟩ : Shape).Broadcasts ⟨2, ![M, N]⟩)
    (x : FVec Ideal ⟨2, ![M, K]⟩ .f32) (W : FVec Ideal ⟨2, ![K, N]⟩ .f32) (b : FVec Ideal ⟨1, ![N]⟩ .f32)
    (r : Fin M) (e : Fin N) :
    addf (matmul D none x W (constant (F := Ideal) ⟨2, ![M, N]⟩ .f32 0x00000000#32))
        (broadcastTo ⟨2, ![M, N]⟩ (shapeCast ⟨2, ![1, N]⟩ b h1) h2) (ix2 r e)
      = ∑ k : Fin K, x (ix2 r k) * W (ix2 k e) + b (ix1 e) := by
  show matmul D none x W (constant (F := Ideal) ⟨2, ![M, N]⟩ .f32 0x00000000#32) (ix2 r e)
      + broadcastTo ⟨2, ![M, N]⟩ (shapeCast ⟨2, ![1, N]⟩ b h1) h2 (ix2 r e) = _
  rw [rowBias_apply b h1 h2 r e]
  refine congrArg (· + b (ix1 e)) ?_
  exact (Ideal.matmul_constant_zero_apply D none x W (ix2 r e)).trans
    (Cert.LibDotSum.sum_dot D hr hs hl0 hl1 hr0 hr1 x W r e)

end Cert.LibDenseRow

end
-- ==== Proof.LibTileSum.lean ====
/-
  A sum over an axis of extent T·B taken tile by tile: the sum over all n < T·B of f n is the sum over the tiles t < T
  of the sum over the positions b < B inside the tile of f (t·B + b). A kernel that walks an axis in blocks and
  accumulates per block computes the right side; a whole-array reduction computes the left. In any commutative
  monoid (at the extended reals no finiteness is needed: only the order of addition changes).
-/
import Mathlib.Algebra.BigOperators.Fin
import Mathlib.Logic.Equiv.Fin.Basic

namespace Cert.LibTileSum

open Finset

/-- Position b of tile t on an axis of T tiles of B positions. -/
def tileIdx {T B : Nat} (t : Fin T) (b : Fin B) : Fin (T * B) :=
  ⟨t.val * B + b.val, by
    have ht := t.isLt; have hb := b.isLt
    have h0 : (t.val + 1) * B = t.val * B + B := Nat.succ_mul t.val B
    have h1 : t.val * B + b.val < (t.val + 1) * B := by rw [h0]; omega
    exact lt_of_lt_of_le h1 (Nat.mul_le_mul_right B ht)⟩

@[simp] theorem tileIdx_val {T B : Nat} (t : Fin T) (b : Fin B) : (tileIdx t b).val = t.val * B + b.val := rfl

/-- The sum over the whole axis is the sum over tiles of the sums inside each tile. -/
theorem sum_tiles {M : Type*} [AddCommMonoid M] {T B : Nat} (f : Fin (T * B) → M) :
    ∑ n : Fin (T * B), f n = ∑ t : Fin T, ∑ b : Fin B, f (tileIdx t b) := by
  rw [← Equiv.sum_comp (finProdFinEquiv (m := T) (n := B)) f, Fintype.sum_prod_type]
  refine Finset.sum_congr rfl fun t _ => Finset.sum_congr rfl fun b _ => ?_
  congr 1
  apply Fin.ext
  show b.val + B * t.val = t.val * B + b.val
  rw [Nat.mul_comm B t.val, Nat.add_comm]

end Cert.LibTileSum
-- ==== Proof.LibBlockDiag.lean ====
/-
  Sixteen rows in one: a dense layer applied to a PACKED array through a BLOCK-DIAGONAL weight.

  Pack P rows of K entries side by side into one row of P·K lanes, lane (p, k) ↦ p·K + k.  Multiply by the matrix
  whose entry at (lane (p', k), column e) is  δ(p', p) · w k  for a column e that belongs to group p: all but the
  K terms of group p are products with an exact zero, so

      ∑_{q < P·K}  x q · W q e   =   ∑_{k < K}  x (p·K + k) · w k ,

  the dense layer of row p alone (sum_blockdiag; packed_dense reads a kernel's  x·W + b  this way, for any sizes, any
  operand float formats and any record of dimension numbers whose six coordinate facts hold).  On the extended reals  0 · y = 0  and  y · 0 = 0  for EVERY y (infinities
  included) and  1 · y = y , so the identity needs no finiteness.
-/
import proofs.«155588_j40321152975542_2_alg».proof.Proof.LibDotSum
import proofs.«155588_j40321152975542_2_alg».proof.Proof.LibDenseRow
import proofs.«155588_j40321152975542_2_alg».proof.Proof.LibTileSum

noncomputable section

namespace Cert.Packed

open Idealize.ShloMosaic Idealize.ShloMosaic.ValueIdx Cert.LibTileSum

/-- The mask of the identity matrix as extended reals. -/
def δ {P : ℕ} (p' p : Fin P) : EReal := if p' = p then 1 else 0

/-- A sum over P·K lanes against a block-diagonal column collapses to the K lanes of the column's group. -/
theorem sum_blockdiag {P K : ℕ} (f g : Fin (P * K) → EReal) (w : Fin K → EReal) (p : Fin P)
    (hg : ∀ p' k, g (tileIdx p' k) = δ p' p * w k) :
    ∑ q, f q * g q = ∑ k, f (tileIdx p k) * w k := by
  rw [sum_tiles]
  rw [Finset.sum_eq_single p]
  · refine Finset.sum_congr rfl fun k _ => ?_
    rw [hg, δ, if_pos rfl, one_mul]
  · intro p' _ hne
    refine Finset.sum_eq_zero fun k _ => ?_
    rw [hg, δ, if_neg hne, zero_mul, mul_zero]
  · intro h; exact absurd (Finset.mem_univ p) h

/-- The same over an axis of L lanes that is P groups of K lanes (`hL : P * K = L`). -/
theorem sum_blockdiag' {P K L : ℕ} (hL : P * K = L) (f g : Fin L → EReal) (w : Fin K → EReal) (p : Fin P)
    (hg : ∀ p' k, g (Fin.cast hL (tileIdx p' k)) = δ p' p * w k) :
    ∑ q, f q * g q = ∑ k, f (Fin.cast hL (tileIdx p k)) * w k := by
  subst hL
  exact sum_blockdiag f g w p hg

/-- A kernel's dense layer  x·W + b  (a matrix product into the zero splat plus a bias row broadcast down the rows)
    on a packed array against a block-diagonal weight, read at row r and column e of group p: the dense layer of the
    K lanes of group p. -/
theorem packed_dense {M L N P K : ℕ} {φ₁ φ₂ : FTy} (hL : P * K = L)
    (D : DotDims ⟨2, ![M, L]⟩ ⟨2, ![L, N]⟩ ⟨2, ![M, N]⟩)
    (hr : D.contr.rank = 1) (hs : D.contr.size ⟨0, by omega⟩ = L)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).ShapeCasts ⟨2, ![1, N]⟩) (h2 : (⟨2, ![1, N]⟩ : Shape).Broadcasts ⟨2, ![M, N]⟩)
    (x : FVec Ideal ⟨2, ![M, L]⟩ φ₁) (W : FVec Ideal ⟨2, ![L, N]⟩ φ₂) (b : FVec Ideal ⟨1, ![N]⟩ .f32)
    (r : Fin M) (e : Fin N) (p : Fin P) (w : Fin K → EReal) (β : EReal)
    (hW : ∀ p' k, W (ix2 (Fin.cast hL (tileIdx p' k)) e) = δ p' p * w k) (hb : b (ix1 e) = β) :
    addf (matmul D none x W (constant (F := Ideal) ⟨2, ![M, N]⟩ .f32 0x00000000#32))
        (broadcastTo ⟨2, ![M, N]⟩ (shapeCast ⟨2, ![1, N]⟩ b h1) h2) (ix2 r e)
      = (∑ k : Fin K, x (ix2 r (Fin.cast hL (tileIdx p k))) * w k) + β := by
  show matmul D none x W (constant (F := Ideal) ⟨2, ![M, N]⟩ .f32 0x00000000#32) (ix2 r e)
      + broadcastTo ⟨2, ![M, N]⟩ (shapeCast ⟨2, ![1, N]⟩ b h1) h2 (ix2 r e) = _
  rw [Cert.LibDenseRow.rowBias_apply b h1 h2 r e, hb]
  refine congrArg (· + β) ?_
  refine (Ideal.matmul_constant_zero_apply D none x W (ix2 r e)).trans ?_
  refine (Cert.LibDotSum.sum_dot D hr hs hl0 hl1 hr0 hr1 x W r e).trans ?_
  exact sum_blockdiag' hL (fun q => x (ix2 r q)) (fun q => W (ix2 q e)) w p hW

end Cert.Packed

end
-- ==== Proof.Spec.lean ====
/-
  The multilayer perceptron of this certificate, written ONE ROW AT A TIME over the extended reals.

  A row x ∈ ℝ̄⁴ is sent through a first affine layer followed by a clip at zero,

      h₀ = max (W₁ x + b₁, 0)                                   (W₁ : 16 × 4),

  then through five residual blocks, block i using the weight matrices 2i and 2i+1 of the stack,

      a   = max (W₂ᵢ h + b₂ᵢ, 0),
      h'  = max ((W₂ᵢ₊₁ a + b₂ᵢ₊₁) + h, 0),

  and finally through the head  W_o h + b_o  (W_o : 2 × 16), with no clip.

  Every affine layer is the finite sum  (W v + b) j = (∑ₖ v k · W j k) + b j : the factors in the order
  activation · weight, the bias added after the sum, the residual added after the bias.  The clip is against
  the single-precision zero word, kept as that word (it is the same word in both programs and is never
  evaluated).  Nothing here needs the entries to be finite: the statements hold at every extended real.

  The whole network applies the row function to every row of the batch independently: `netArr`.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The zero word the clips compare against. -/
abbrev zw : EReal := Ideal.ofBits .f32 0x00000000#32

/-- An affine layer on one row: `(∑ₖ v k · w j k) + b j`. -/
def fc {n o : ℕ} (w : Fin o → Fin n → EReal) (b : Fin o → EReal) (v : Fin n → EReal) : Fin o → EReal :=
  fun j => (∑ k, v k * w j k) + b j

/-- The clip at zero of one row. -/
def clip {o : ℕ} (v : Fin o → EReal) : Fin o → EReal := fun j => max (v j) zw

/-- The first half of a residual block: an affine layer and a clip. -/
def half {n o : ℕ} (w : Fin o → Fin n → EReal) (b : Fin o → EReal) (v : Fin n → EReal) : Fin o → EReal :=
  clip (fc w b v)

/-- A residual block on one row `h`: `max ((w_b · max (w_a h + b_a, 0) + b_b) + h, 0)`. -/
def resBlock (wa : Fin 16 → Fin 16 → EReal) (ba : Fin 16 → EReal) (wb : Fin 16 → Fin 16 → EReal) (bb : Fin 16 → EReal)
    (h : Fin 16 → EReal) : Fin 16 → EReal :=
  clip (fun j => fc wb bb (half wa ba h) j + h j)

/-- The network on one row. -/
def net (W1 : Fin 16 → Fin 4 → EReal) (b1 : Fin 16 → EReal) (Wh : Fin 10 → Fin 16 → Fin 16 → EReal)
    (bh : Fin 10 → Fin 16 → EReal) (Wo : Fin 2 → Fin 16 → EReal) (bo : Fin 2 → EReal) (x : Fin 4 → EReal) : Fin 2 → EReal :=
  fc Wo bo
    (resBlock (Wh 8) (bh 8) (Wh 9) (bh 9)
      (resBlock (Wh 6) (bh 6) (Wh 7) (bh 7)
        (resBlock (Wh 4) (bh 4) (Wh 5) (bh 5)
          (resBlock (Wh 2) (bh 2) (Wh 3) (bh 3)
            (resBlock (Wh 0) (bh 0) (Wh 1) (bh 1)
              (half W1 b1 x))))))

/-- The network on the whole batch: row `i 0` of the result is the row function of row `i 0` of `x`; the weight
    arrays are read entry by entry. -/
def netArr (x : (⟨2, ![2097152, 4]⟩ : Shape).Idx → EReal) (W1 : (⟨2, ![16, 4]⟩ : Shape).Idx → EReal)
    (b1 : (⟨1, ![16]⟩ : Shape).Idx → EReal) (Wh : (⟨3, ![10, 16, 16]⟩ : Shape).Idx → EReal)
    (bh : (⟨2, ![10, 16]⟩ : Shape).Idx → EReal) (Wo : (⟨2, ![2, 16]⟩ : Shape).Idx → EReal)
    (bo : (⟨1, ![2]⟩ : Shape).Idx → EReal) : (⟨2, ![2097152, 2]⟩ : Shape).Idx → EReal :=
  fun i => net (fun j k => W1 (ix2 j k)) (fun j => b1 (ix1 j)) (fun l j k => Wh (ix3 l j k)) (fun l j => bh (ix2 l j))
    (fun a k => Wo (ix2 a k)) (fun a => bo (ix1 a)) (fun k => x (ix2 (i 0) k)) (i 1)

end Cert.Mlp

end
-- ==== Proof.Payload.lean ====
/-
  The kernel's body on one block, read at a packed lane.

  The body holds a block of 4096 packed rows; lane 16·p + j of packed row r is entry j of original row 16·r + p.
  Every layer of the body is  x·W + b  (a matrix product into the zero splat, a bias row broadcast down the rows),
  possibly plus the residual, clipped at zero.  Against a block-diagonal weight — entry (16·p' + k, 16·p + j) equal to
  δ(p', p) · w j k — and a tiled bias — entry 16·p + j equal to β j — such a layer read at lane (p, j) is the row
  function of Spec applied to the sixteen lanes of group p (packed_dense), so the whole body read at lane
  (p, a) of its 128-lane result, a < 2, is the network of Spec on the four input lanes of group p.
-/
import proofs.«155588_j40321152975542_2_alg».proof.Proof.Gen.KernelIdeal.Frame
import proofs.«155588_j40321152975542_2_alg».proof.Proof.LibBlockDiag
import proofs.«155588_j40321152975542_2_alg».proof.Proof.Spec
import Idealize.ShloMosaic.Lib.ValueLayout

noncomputable section

namespace Cert.KernelIdeal.Payload

open Cert.KernelIdeal Cert.KernelIdeal.Gen Idealize.ShloMosaic Idealize.ShloMosaic.ValueIdx
open Cert.Packed Cert.LibTileSum Cert.Mlp

variable [hF : Cert.KernelIdeal.Facts]

/-- Lane 16·p + j of a 256-lane row. -/
abbrev ln16 (p j : Fin 16) : Fin 256 := Fin.cast (by norm_num : 16 * 16 = 256) (tileIdx p j)
/-- Lane 4·p + k of a 64-lane row. -/
abbrev ln4 (p : Fin 16) (k : Fin 4) : Fin 64 := Fin.cast (by norm_num : 16 * 4 = 64) (tileIdx p k)
/-- Lane 2·p + a of a 128-lane row (the first 32 lanes). -/
abbrev ln2 (p : Fin 16) (a : Fin 2) : Fin 128 := ⟨p.val * 2 + a.val, by have := p.isLt; have := a.isLt; omega⟩

/-- The body's dense layer on 256 lanes:  x·W + b . -/
abbrev kdense (H : FVec Ideal S4096x256 .f32) (W : FVec Ideal S256x256 .bf16) (b : FVec Ideal S256 .f32) : FVec Ideal S4096x256 .f32 :=
  addf (matmul dot_S4096x256_S256x256_S4096x256_1_0_0_1_n_n none (truncf .bf16 H bitsLt_bf16_f32) W (constant S4096x256 .f32 0x00000000#32))
    (broadcastTo S4096x256 (shapeCast S1x256 b shapeCasts_S256_S1x256) broadcasts_S1x256_S4096x256)

/-- The body's clip at zero. -/
abbrev kclip (X : FVec Ideal S4096x256 .f32) : FVec Ideal S4096x256 .f32 :=
  maximumf X (broadcast S4096x256 (Scalar.ofBits .f32 0x00000000#32))

/-- A dense layer on 256 lanes against a block-diagonal weight and a tiled bias, at lane (p, j). -/
theorem kdense_apply (H : FVec Ideal S4096x256 .f32) (W : FVec Ideal S256x256 .bf16) (b : FVec Ideal S256 .f32)
    (w : Fin 16 → Fin 16 → EReal) (β : Fin 16 → EReal)
    (hW : ∀ p' k p j, W (ix2 (ln16 p' k) (ln16 p j)) = δ p' p * w j k) (hb : ∀ p j, b (ix1 (ln16 p j)) = β j)
    (g : Fin 4096 → Fin 16 → Fin 16 → EReal) (hH : ∀ r p k, H (ix2 r (ln16 p k)) = g r p k)
    (r : Fin 4096) (p j : Fin 16) :
    kdense H W b (ix2 r (ln16 p j)) = fc w β (g r p) j := by
  refine (packed_dense (P := 16) (K := 16) (by norm_num : 16 * 16 = 256) dot_S4096x256_S256x256_S4096x256_1_0_0_1_n_n rfl rfl
    (fun _ _ => rfl) (fun _ _ => rfl) (fun _ _ => rfl) (fun _ _ => rfl) shapeCasts_S256_S1x256 broadcasts_S1x256_S4096x256
    (truncf .bf16 H bitsLt_bf16_f32) W b r (ln16 p j) p (w j) (β j) (fun p' k => hW p' k p j) (hb p j)).trans ?_
  unfold fc
  refine congrArg (· + β j) (Finset.sum_congr rfl fun k _ => ?_)
  exact congrArg (· * w j k) (hH r p k)

/-- Slice l of the weight stack, as the body loads and reshapes it, is the stack's matrix l. -/
theorem wslice (l : Fin 10) (inb) (x3 : Vec Ideal S10x256x256 .bf16) (q' q : Fin 256) :
    shapeCast S256x256 (View.ld x3 (Rect.unit (s := S10x256x256) ![l.val, 0, 0] S1x256x256.size inb)) shapeCasts_S1x256x256_S256x256 (ix2 q' q)
      = x3 (ix3 l q' q) := by
  refine (shapeCast_1ab_ab_apply (a := 256) (b := 256) _ shapeCasts_S1x256x256_S256x256 q' q).trans ?_
  show x3 _ = x3 _
  congr 1
  funext a
  apply Fin.ext
  match a with
  | ⟨0, _⟩ => show l.val + 1 * 0 = l.val; omega
  | ⟨1, _⟩ => show 0 + 1 * q'.val = q'.val; omega
  | ⟨2, _⟩ => show 0 + 1 * q.val = q.val; omega

/-- Row l of the bias stack, as the body loads and reshapes it, is the stack's row l. -/
theorem bslice (l : Fin 10) (inb) (x4 : Vec Ideal S10x256 .f32) (q : Fin 256) :
    shapeCast S256 (View.ld x4 (Rect.unit (s := S10x256) ![l.val, 0] S1x256.size inb)) shapeCasts_S1x256_S256 (ix1 q)
      = x4 (ix2 l q) := by
  refine (shapeCast_1a_a_apply (a := 256) _ shapeCasts_S1x256_S256 q).trans ?_
  show x4 _ = x4 _
  congr 1
  funext a
  apply Fin.ext
  match a with
  | ⟨0, _⟩ => show l.val + 1 * 0 = l.val; omega
  | ⟨1, _⟩ => show 0 + 1 * q.val = q.val; omega

/-- A clipped dense layer at lane (p, j) is Spec's half layer on group p. -/
theorem khalf_apply (H : FVec Ideal S4096x256 .f32) (W : FVec Ideal S256x256 .bf16) (b : FVec Ideal S256 .f32)
    (w : Fin 16 → Fin 16 → EReal) (β : Fin 16 → EReal)
    (hW : ∀ p' k p j, W (ix2 (ln16 p' k) (ln16 p j)) = δ p' p * w j k) (hb : ∀ p j, b (ix1 (ln16 p j)) = β j)
    (g : Fin 4096 → Fin 16 → Fin 16 → EReal) (hH : ∀ r p k, H (ix2 r (ln16 p k)) = g r p k)
    (r : Fin 4096) (p j : Fin 16) :
    kclip (kdense H W b) (ix2 r (ln16 p j)) = half w β (g r p) j := by
  show max (kdense H W b (ix2 r (ln16 p j))) zw = _
  rw [kdense_apply H W b w β hW hb g hH r p j]
  rfl

/-- The body's residual block:  clip ((clip (H·Wa + ba))·Wb + bb + H) . -/
def kblock (H : FVec Ideal S4096x256 .f32) (Wa : FVec Ideal S256x256 .bf16) (ba : FVec Ideal S256 .f32)
    (Wb : FVec Ideal S256x256 .bf16) (bb : FVec Ideal S256 .f32) : FVec Ideal S4096x256 .f32 :=
  kclip (addf (kdense (kclip (kdense H Wa ba)) Wb bb) H)

/-- A residual block at lane (p, j) is Spec's residual block on group p. -/
theorem kblock_apply (H : FVec Ideal S4096x256 .f32) (Wa : FVec Ideal S256x256 .bf16) (ba : FVec Ideal S256 .f32)
    (Wb : FVec Ideal S256x256 .bf16) (bb : FVec Ideal S256 .f32)
    (wa : Fin 16 → Fin 16 → EReal) (βa : Fin 16 → EReal) (wb : Fin 16 → Fin 16 → EReal) (βb : Fin 16 → EReal)
    (hWa : ∀ p' k p j, Wa (ix2 (ln16 p' k) (ln16 p j)) = δ p' p * wa j k) (hba : ∀ p j, ba (ix1 (ln16 p j)) = βa j)
    (hWb : ∀ p' k p j, Wb (ix2 (ln16 p' k) (ln16 p j)) = δ p' p * wb j k) (hbb : ∀ p j, bb (ix1 (ln16 p j)) = βb j)
    (g : Fin 4096 → Fin 16 → Fin 16 → EReal) (hH : ∀ r p k, H (ix2 r (ln16 p k)) = g r p k)
    (r : Fin 4096) (p j : Fin 16) :
    kblock H Wa ba Wb bb (ix2 r (ln16 p j)) = resBlock wa βa wb βb (g r p) j := by
  unfold kblock
  show max (kdense (kclip (kdense H Wa ba)) Wb bb (ix2 r (ln16 p j)) + H (ix2 r (ln16 p j))) zw = _
  rw [kdense_apply (kclip (kdense H Wa ba)) Wb bb wb βb hWb hbb (fun r p => half wa βa (g r p))
    (fun r p k => khalf_apply H Wa ba wa βa hWa hba g hH r p k) r p j, hH r p j]
  rfl

/-- The first layer: 64 packed input lanes (four per row) to 256 lanes, clipped. -/
theorem kfirst_apply (x0 : FVec Ideal S4096x64 .f32) (W : FVec Ideal S64x256 .bf16) (b : FVec Ideal S256 .f32)
    (w : Fin 16 → Fin 4 → EReal) (β : Fin 16 → EReal)
    (hW : ∀ p' k p j, W (ix2 (ln4 p' k) (ln16 p j)) = δ p' p * w j k) (hb : ∀ p j, b (ix1 (ln16 p j)) = β j)
    (r : Fin 4096) (p j : Fin 16) :
    kclip (addf (matmul dot_S4096x64_S64x256_S4096x256_1_0_0_1_n_n none (truncf .bf16 x0 bitsLt_bf16_f32) W (constant S4096x256 .f32 0x00000000#32))
      (broadcastTo S4096x256 (shapeCast S1x256 b shapeCasts_S256_S1x256) broadcasts_S1x256_S4096x256)) (ix2 r (ln16 p j))
      = half w β (fun k => x0 (ix2 r (ln4 p k))) j := by
  show max (addf (matmul dot_S4096x64_S64x256_S4096x256_1_0_0_1_n_n none (truncf .bf16 x0 bitsLt_bf16_f32) W (constant S4096x256 .f32 0x00000000#32))
      (broadcastTo S4096x256 (shapeCast S1x256 b shapeCasts_S256_S1x256) broadcasts_S1x256_S4096x256) (ix2 r (ln16 p j))) zw = _
  rw [packed_dense (P := 16) (K := 4) (by norm_num : 16 * 4 = 64) dot_S4096x64_S64x256_S4096x256_1_0_0_1_n_n rfl rfl
    (fun _ _ => rfl) (fun _ _ => rfl) (fun _ _ => rfl) (fun _ _ => rfl) shapeCasts_S256_S1x256 broadcasts_S1x256_S4096x256
    (truncf .bf16 x0 bitsLt_bf16_f32) W b r (ln16 p j) p (w j) (β j) (fun p' k => hW p' k p j) (hb p j)]
  rfl

/-- The head: 256 lanes to 128 lanes, of which lane 2·p + a (a < 2) is output a of group p; no clip. -/
theorem khead_apply (H : FVec Ideal S4096x256 .f32) (W : FVec Ideal S256x128 .bf16) (b : FVec Ideal S128 .f32)
    (w : Fin 2 → Fin 16 → EReal) (β : Fin 2 → EReal)
    (hW : ∀ p' k p a, W (ix2 (ln16 p' k) (ln2 p a)) = δ p' p * w a k) (hb : ∀ p a, b (ix1 (ln2 p a)) = β a)
    (g : Fin 4096 → Fin 16 → Fin 16 → EReal) (hH : ∀ r p k, H (ix2 r (ln16 p k)) = g r p k)
    (r : Fin 4096) (p : Fin 16) (a : Fin 2) :
    addf (matmul dot_S4096x256_S256x128_S4096x128_1_0_0_1_n_n none (truncf .bf16 H bitsLt_bf16_f32) W (constant S4096x128 .f32 0x00000000#32))
      (broadcastTo S4096x128 (shapeCast S1x128 b shapeCasts_S128_S1x128) broadcasts_S1x128_S4096x128) (ix2 r (ln2 p a))
      = fc w β (g r p) a := by
  refine (packed_dense (P := 16) (K := 16) (by norm_num : 16 * 16 = 256) dot_S4096x256_S256x128_S4096x128_1_0_0_1_n_n rfl rfl
    (fun _ _ => rfl) (fun _ _ => rfl) (fun _ _ => rfl) (fun _ _ => rfl) shapeCasts_S128_S1x128 broadcasts_S1x128_S4096x128
    (truncf .bf16 H bitsLt_bf16_f32) W b r (ln2 p a) p (w a) (β a) (fun p' k => hW p' k p a) (hb p a)).trans ?_
  unfold fc
  refine congrArg (· + β a) (Finset.sum_congr rfl fun k _ => ?_)
  exact congrArg (· * w a k) (hH r p k)

end Cert.KernelIdeal.Payload

end
-- ==== Proof.Body.lean ====
/-
  The kernel's whole body on one block: its one store, read at lane 2·p + a of packed row r, is the network of Spec on
  the four input lanes of group p — given that the staged weights are block diagonal and the staged biases tiled.

  The body's payloads are five residual blocks around the first layer and under the head; each residual block reads
  its input twice (once through the matrix product, once as the residual), so the chain is followed one block at a
  time over an abstract input, never unfolded whole.
-/
import proofs.«155588_j40321152975542_2_alg».proof.Proof.Payload

noncomputable section

namespace Cert.KernelIdeal.Payload

open Cert.KernelIdeal Cert.KernelIdeal.Gen Idealize.ShloMosaic Idealize.ShloMosaic.ValueIdx
open Cert.Packed Cert.LibTileSum Cert.Mlp

variable [hF : Cert.KernelIdeal.Facts]

/-- A weight slice as the body casts it. -/
abbrev wc (v : Vec Ideal S1x256x256 .bf16) : FVec Ideal S256x256 .bf16 := shapeCast S256x256 v shapeCasts_S1x256x256_S256x256
/-- A bias row as the body casts it. -/
abbrev bc (v : Vec Ideal S1x256 .f32) : FVec Ideal S256 .f32 := shapeCast S256 v shapeCasts_S1x256_S256

/-- The first layer as the body computes it. -/
abbrev kfirst (v0 : Vec Ideal S4096x64 .f32) (v3 : Vec Ideal S64x256 .bf16) (v6 : Vec Ideal S256 .f32) : FVec Ideal S4096x256 .f32 :=
  kclip (addf (matmul dot_S4096x64_S64x256_S4096x256_1_0_0_1_n_n none
      (truncf .bf16 (shapeCast S4096x64 v0 shapeCasts_S4096x64_S4096x64 : FVec Ideal S4096x64 .f32) bitsLt_bf16_f32) (shapeCast S64x256 v3 shapeCasts_S64x256_S64x256 : FVec Ideal S64x256 .bf16) (constant S4096x256 .f32 0x00000000#32))
    (broadcastTo S4096x256 (shapeCast S1x256 v6 shapeCasts_S256_S1x256 : FVec Ideal S1x256 .f32) broadcasts_S1x256_S4096x256))

/-- The head as the body computes it. -/
abbrev khead (H : FVec Ideal S4096x256 .f32) (v128 : Vec Ideal S256x128 .bf16) (v131 : Vec Ideal S128 .f32) : FVec Ideal S4096x128 .f32 :=
  addf (matmul dot_S4096x256_S256x128_S4096x128_1_0_0_1_n_n none (truncf .bf16 H bitsLt_bf16_f32) (shapeCast S256x128 v128 shapeCasts_S256x128_S256x128 : FVec Ideal S256x128 .bf16) (constant S4096x128 .f32 0x00000000#32))
    (broadcastTo S4096x128 (shapeCast S1x128 (shapeCast S128 v131 shapeCasts_S128_S128 : FVec Ideal S128 .f32) shapeCasts_S128_S1x128 : FVec Ideal S1x128 .f32) broadcasts_S1x128_S4096x128)

/-! ## The payloads, as blocks -/

theorem pay2_eq (v0 : Vec Ideal S4096x64 .f32) (v3 : Vec Ideal S64x256 .bf16) (v6 : Vec Ideal S256 .f32) (v12 : Vec Ideal S1x256x256 .bf16) (v14 : Vec Ideal S1x256 .f32) (v16 : Vec Ideal S1x256x256 .bf16) (v18 : Vec Ideal S1x256 .f32) :
    k0_pay2 (F := Ideal) v0 v3 v6 v12 v14 v16 v18 = kblock (kfirst v0 v3 v6) (wc v12) (bc v14) (wc v16) (bc v18) := rfl

theorem pay3_eq (v34 : FVec Ideal S4096x256 .f32) (v35 : Vec Ideal S1x256x256 .bf16) (v37 : Vec Ideal S1x256 .f32) (v39 : Vec Ideal S1x256x256 .bf16) (v41 : Vec Ideal S1x256 .f32) :
    k0_pay3 (F := Ideal) v34 v35 v37 v39 v41 = kblock v34 (wc v35) (bc v37) (wc v39) (bc v41) := rfl

/-- The third block is split over two payloads: its first product in one, the rest at the head of the next. -/
theorem pay8_eq (v34 : FVec Ideal S4096x256 .f32) (v35 : Vec Ideal S1x256x256 .bf16) (v37 : Vec Ideal S1x256 .f32) (v39 : Vec Ideal S1x256x256 .bf16) (v41 : Vec Ideal S1x256 .f32)
    (v58 : Vec Ideal S1x256x256 .bf16) (v60 : Vec Ideal S1x256 .f32) (v62 : Vec Ideal S1x256x256 .bf16) (v64 : Vec Ideal S1x256 .f32)
    (v81 : Vec Ideal S1x256x256 .bf16) (v83 : Vec Ideal S1x256 .f32) (v85 : Vec Ideal S1x256x256 .bf16) (v87 : Vec Ideal S1x256 .f32) :
    k0_pay8 (F := Ideal) (k0_pay3 v34 v35 v37 v39 v41) (k0_pay4 v62) (k0_pay5 v64) (k0_pay6 v34 v35 v37 v39 v41 v58 v60) (k0_pay7 (F := Ideal)) v81 v83 v85 v87
      = kblock (kblock (k0_pay3 (F := Ideal) v34 v35 v37 v39 v41) (wc v58) (bc v60) (wc v62) (bc v64)) (wc v81) (bc v83) (wc v85) (bc v87) := rfl

theorem pay1_eq (v103 : FVec Ideal S4096x256 .f32) (v104 : Vec Ideal S1x256x256 .bf16) (v106 : Vec Ideal S1x256 .f32) (v108 : Vec Ideal S1x256x256 .bf16) (v110 : Vec Ideal S1x256 .f32)
    (v128 : Vec Ideal S256x128 .bf16) (v131 : Vec Ideal S128 .f32) :
    k0_pay1 (F := Ideal) v103 (k0_pay9 v104) (k0_pay10 v106) v108 v110 v128 v131
      = khead (kblock v103 (wc v104) (bc v106) (wc v108) (bc v110)) v128 v131 := rfl

/-! ## The whole body at a packed lane -/

theorem hz2 : (![0, 0] : Fin 2 → Nat) = fun _ => 0 := funext fun a => by fin_cases a <;> rfl
theorem hz1 : (![0] : Fin 1 → Nat) = fun _ => 0 := funext fun a => by fin_cases a <;> rfl

/-- The first layer with its casts of a shape to itself removed. -/
theorem kfirst_lane (x0 : Vec Ideal S4096x64 .f32) (x1 : Vec Ideal S64x256 .bf16) (x2 : Vec Ideal S256 .f32)
    (W1 : Fin 16 → Fin 4 → EReal) (b1 : Fin 16 → EReal)
    (h1 : ∀ p' k p j, x1 (ix2 (ln4 p' k) (ln16 p j)) = δ p' p * W1 j k) (h2 : ∀ p j, x2 (ix1 (ln16 p j)) = b1 j)
    (r : Fin 4096) (p k : Fin 16) :
    kfirst x0 x1 x2 (ix2 r (ln16 p k)) = half W1 b1 (fun k => x0 (ix2 r (ln4 p k))) k := by
  unfold kfirst
  rw [shapeCast_self, shapeCast_self]
  exact kfirst_apply x0 x1 x2 W1 b1 h1 h2 r p k

/-- The head with its casts of a shape to itself removed. -/
theorem khead_lane (H : FVec Ideal S4096x256 .f32) (x5 : Vec Ideal S256x128 .bf16) (x6 : Vec Ideal S128 .f32)
    (w : Fin 2 → Fin 16 → EReal) (β : Fin 2 → EReal)
    (hW : ∀ p' k p a, x5 (ix2 (ln16 p' k) (ln2 p a)) = δ p' p * w a k) (hb : ∀ p a, x6 (ix1 (ln2 p a)) = β a)
    (g : Fin 4096 → Fin 16 → Fin 16 → EReal) (hH : ∀ r p k, H (ix2 r (ln16 p k)) = g r p k)
    (r : Fin 4096) (p : Fin 16) (a : Fin 2) :
    khead H x5 x6 (ix2 r (ln2 p a)) = fc w β (g r p) a := by
  unfold khead
  rw [shapeCast_self, shapeCast_self]
  exact khead_apply H x5 x6 w β hW hb g hH r p a

/-- THE BODY: what the body stores, read at lane 2·p + a of packed row r, is the network on the four input lanes of
    group p, for block-diagonal staged weights and tiled staged biases. -/
theorem body_apply
    (x0 : Vec Ideal S4096x64 .f32) (x1 : Vec Ideal S64x256 .bf16) (x2 : Vec Ideal S256 .f32) (x3 : Vec Ideal S10x256x256 .bf16)
    (x4 : Vec Ideal S10x256 .f32) (x5 : Vec Ideal S256x128 .bf16) (x6 : Vec Ideal S128 .f32)
    (W1 : Fin 16 → Fin 4 → EReal) (b1 : Fin 16 → EReal) (Wh : Fin 10 → Fin 16 → Fin 16 → EReal)
    (bh : Fin 10 → Fin 16 → EReal) (Wo : Fin 2 → Fin 16 → EReal) (bo : Fin 2 → EReal)
    (h1 : ∀ p' k p j, x1 (ix2 (ln4 p' k) (ln16 p j)) = δ p' p * W1 j k)
    (h2 : ∀ p j, x2 (ix1 (ln16 p j)) = b1 j)
    (h3 : ∀ l p' k p j, x3 (ix3 l (ln16 p' k) (ln16 p j)) = δ p' p * Wh l j k)
    (h4 : ∀ l p j, x4 (ix2 l (ln16 p j)) = bh l j)
    (h5 : ∀ p' k p a, x5 (ix2 (ln16 p' k) (ln2 p a)) = δ p' p * Wo a k)
    (h6 : ∀ p a, x6 (ix1 (ln2 p a)) = bo a)
    (r : Fin 4096) (p : Fin 16) (a : Fin 2) :
    out0_7 x0 x1 x2 x3 x4 x5 x6 (ix2 r (ln2 p a)) = net W1 b1 Wh bh Wo bo (fun k => x0 (ix2 r (ln4 p k))) a := by
  have hw : ∀ (l : Fin 10) (inb), ∀ p' k p j,
      wc (View.ld x3 (Rect.unit (s := S10x256x256) ![l.val, 0, 0] S1x256x256.size inb)) (ix2 (ln16 p' k) (ln16 p j)) = δ p' p * Wh l j k :=
    fun l inb p' k p j => (wslice l inb x3 _ _).trans (h3 l p' k p j)
  have hb : ∀ (l : Fin 10) (inb), ∀ p j,
      bc (View.ld x4 (Rect.unit (s := S10x256) ![l.val, 0] S1x256.size inb)) (ix1 (ln16 p j)) = bh l j :=
    fun l inb p j => (bslice l inb x4 _).trans (h4 l p j)
  unfold out0_7
  rw [View.canon_unit_zero hz2]
  rw [View.ld_unit_zero (S := S4096x64) hz2, View.ld_unit_zero (S := S64x256) hz2, View.ld_unit_zero (S := S256) hz1,
    View.ld_unit_zero (S := S256x128) hz2, View.ld_unit_zero (S := S128) hz1]
  rw [pay1_eq, pay8_eq, pay3_eq, pay2_eq]
  have E0 := kfirst_lane x0 x1 x2 W1 b1 h1 h2
  have E1 := kblock_apply (kfirst x0 x1 x2) (wc (View.ld x3 r0_3)) (bc (View.ld x4 r0_4)) (wc (View.ld x3 r0_5)) (bc (View.ld x4 r0_6))
    (Wh 0) (bh 0) (Wh 1) (bh 1) (hw 0 _) (hb 0 _) (hw 1 _) (hb 1 _) _ E0
  have E2 := kblock_apply _ (wc (View.ld x3 r0_7)) (bc (View.ld x4 r0_8)) (wc (View.ld x3 r0_9)) (bc (View.ld x4 r0_10))
    (Wh 2) (bh 2) (Wh 3) (bh 3) (hw 2 _) (hb 2 _) (hw 3 _) (hb 3 _) _ E1
  have E3 := kblock_apply _ (wc (View.ld x3 r0_11)) (bc (View.ld x4 r0_12)) (wc (View.ld x3 r0_13)) (bc (View.ld x4 r0_14))
    (Wh 4) (bh 4) (Wh 5) (bh 5) (hw 4 _) (hb 4 _) (hw 5 _) (hb 5 _) _ E2
  have E4 := kblock_apply _ (wc (View.ld x3 r0_15)) (bc (View.ld x4 r0_16)) (wc (View.ld x3 r0_17)) (bc (View.ld x4 r0_18))
    (Wh 6) (bh 6) (Wh 7) (bh 7) (hw 6 _) (hb 6 _) (hw 7 _) (hb 7 _) _ E3
  have E5 := kblock_apply _ (wc (View.ld x3 r0_19)) (bc (View.ld x4 r0_20)) (wc (View.ld x3 r0_21)) (bc (View.ld x4 r0_22))
    (Wh 8) (bh 8) (Wh 9) (bh 9) (hw 8 _) (hb 8 _) (hw 9 _) (hb 9 _) _ E4
  exact khead_lane _ x5 x6 Wo bo h5 h6 _ E5 r p a

end Cert.KernelIdeal.Payload

end
-- ==== Proof.KernelValue.lean ====
/-
  The kernel's result array as the network of Spec, row by row.

  Grid point t of 32 stages packed rows 4096·t … 4096·t + 4095 of the packed input (packed row R holds original rows
  16·R … 16·R + 15, four lanes each) and the whole of every weight and bias array, and writes back block t of a
  131072 × 128 array.  By Body.body_apply lane 2·p + a (a < 2) of packed row R of that array is output a of the
  network on original row 16·R + p.  The blocks cover the array, so this holds of the array after the run; the two
  host operations after the call keep the first 32 lanes and unpack them, (R, 2·p + a) ↦ (16·R + p, a), which gives
  the network on every row of the batch: Spec's netArr of the seven arguments.
-/
import proofs.«155588_j40321152975542_2_alg».proof.Proof.Gen.KernelIdeal.Frame
import proofs.«155588_j40321152975542_2_alg».proof.Proof.Body
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Cert.KernelIdeal.Payload Cert.Packed Cert.LibTileSum Cert.Mlp

variable (m : (ℓ : Loc nD τ sig) → Buf (Elt Ideal) ℓ) (ρ : Dev nD → PrngReg)

/-- The seven argument arrays as launched. -/
abbrev A0 (c : Dev nD) : S2097152x4.Idx → EReal := m ((c : Thread nD τ).loc main_arg0)
abbrev A1 (c : Dev nD) : S16x4.Idx → EReal := m ((c : Thread nD τ).loc main_arg1)
abbrev A2 (c : Dev nD) : S16.Idx → EReal := m ((c : Thread nD τ).loc main_arg2)
abbrev A3 (c : Dev nD) : S10x16x16.Idx → EReal := m ((c : Thread nD τ).loc main_arg3)
abbrev A4 (c : Dev nD) : S10x16.Idx → EReal := m ((c : Thread nD τ).loc main_arg4)
abbrev A5 (c : Dev nD) : S2x16.Idx → EReal := m ((c : Thread nD τ).loc main_arg5)
abbrev A6 (c : Dev nD) : S2.Idx → EReal := m ((c : Thread nD τ).loc main_arg6)

/-- What the host operations before the call leave in the seven staged arrays, entry by entry: the packed input, the
    block-diagonal weights (the identity mask times the transposed weight), the tiled biases. -/
structure HostFacts (c : Dev nD) : Prop where
  x2 : ∀ (R : Fin 131072) (p : Fin 16) (k : Fin 4),
    (V m c main_v26 : S131072x64.Idx → EReal) (ix2 R (⟨4 * p.val + k.val, by omega⟩ : Fin 64))
      = A0 m c (ix2 (⟨16 * R.val + p.val, by omega⟩ : Fin 2097152) k)
  w1 : ∀ (p' : Fin 16) (k : Fin 4) (p j : Fin 16),
    (V m c main_v8 : S64x256.Idx → EReal) (ix2 (⟨4 * p'.val + k.val, by omega⟩ : Fin 64) (⟨16 * p.val + j.val, by omega⟩ : Fin 256))
      = δ p' p * A1 m c (ix2 j k)
  b1 : ∀ (p j : Fin 16),
    (V m c main_v18 : S256.Idx → EReal) (ix1 (⟨16 * p.val + j.val, by omega⟩ : Fin 256)) = A2 m c (ix1 j)
  wh : ∀ (l : Fin 10) (p' k p j : Fin 16),
    (V m c main_v11 : S10x256x256.Idx → EReal) (ix3 l (⟨16 * p'.val + k.val, by omega⟩ : Fin 256) (⟨16 * p.val + j.val, by omega⟩ : Fin 256))
      = δ p' p * A3 m c (ix3 l j k)
  bh : ∀ (l : Fin 10) (p j : Fin 16),
    (V m c main_v21 : S10x256.Idx → EReal) (ix2 l (⟨16 * p.val + j.val, by omega⟩ : Fin 256)) = A4 m c (ix2 l j)
  wo : ∀ (p' k p : Fin 16) (a : Fin 2),
    (V m c main_v15 : S256x128.Idx → EReal) (ix2 (⟨16 * p'.val + k.val, by omega⟩ : Fin 256) (⟨2 * p.val + a.val, by omega⟩ : Fin 128))
      = δ p' p * A5 m c (ix2 a k)
  bo : ∀ (p : Fin 16) (a : Fin 2),
    (V m c main_v25 : S128.Idx → EReal) (ix1 (⟨2 * p.val + a.val, by omega⟩ : Fin 128)) = A6 m c (ix1 a)

/-- The printed index maps over the grid: the input's and the output's blocks move with the point, every other window
    stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

variable {m}

section blocks
variable {c : Dev nD} (hf : HostFacts m c) (t : Fin cfg0.N)
include hf

theorem blk1 (p' : Fin 16) (k : Fin 4) (p j : Fin 16) :
    (iblk m c 1 t : S64x256.Idx → EReal) (ix2 (ln4 p' k) (ln16 p j)) = δ p' p * A1 m c (ix2 j k) := by
  obtain ⟨-, -, e0, e1, -⟩ := idx_facts t
  have e : ((cfg0.win 1).blk t).view.emb (ix2 (ln4 p' k) (ln16 p j))
      = (ix2 (⟨4 * p'.val + k.val, by omega⟩ : Fin 64) (⟨16 * p.val + j.val, by omega⟩ : Fin 256) : S64x256.Idx) := by
    funext a; apply Fin.ext
    match a with
    | ⟨0, _⟩ => show win0_1.index t (0 : Fin 2) * 64 + 1 * (p'.val * 4 + k.val) = 4 * p'.val + k.val; omega
    | ⟨1, _⟩ => show win0_1.index t (1 : Fin 2) * 256 + 1 * (p.val * 16 + j.val) = 16 * p.val + j.val; omega
  show V m c main_v8 (((cfg0.win 1).blk t).view.emb (ix2 (ln4 p' k) (ln16 p j))) = _
  rw [e]; exact hf.w1 p' k p j

theorem blk2 (p j : Fin 16) : (iblk m c 2 t : S256.Idx → EReal) (ix1 (ln16 p j)) = A2 m c (ix1 j) := by
  obtain ⟨-, -, -, -, e0, -⟩ := idx_facts t
  have e : ((cfg0.win 2).blk t).view.emb (ix1 (ln16 p j)) = (ix1 (⟨16 * p.val + j.val, by omega⟩ : Fin 256) : S256.Idx) := by
    funext a; apply Fin.ext
    match a with
    | ⟨0, _⟩ => show win0_2.index t (0 : Fin 1) * 256 + 1 * (p.val * 16 + j.val) = 16 * p.val + j.val; omega
  show V m c main_v18 (((cfg0.win 2).blk t).view.emb (ix1 (ln16 p j))) = _
  rw [e]; exact hf.b1 p j

theorem blk3 (l : Fin 10) (p' k p j : Fin 16) :
    (iblk m c 3 t : S10x256x256.Idx → EReal) (ix3 l (ln16 p' k) (ln16 p j)) = δ p' p * A3 m c (ix3 l j k) := by
  obtain ⟨-, -, -, -, -, e0, e1, e2, -⟩ := idx_facts t
  have e : ((cfg0.win 3).blk t).view.emb (ix3 l (ln16 p' k) (ln16 p j))
      = (ix3 l (⟨16 * p'.val + k.val, by omega⟩ : Fin 256) (⟨16 * p.val + j.val, by omega⟩ : Fin 256) : S10x256x256.Idx) := by
    funext a; apply Fin.ext
    match a with
    | ⟨0, _⟩ => show win0_3.index t (0 : Fin 3) * 10 + 1 * l.val = l.val; omega
    | ⟨1, _⟩ => show win0_3.index t (1 : Fin 3) * 256 + 1 * (p'.val * 16 + k.val) = 16 * p'.val + k.val; omega
    | ⟨2, _⟩ => show win0_3.index t (2 : Fin 3) * 256 + 1 * (p.val * 16 + j.val) = 16 * p.val + j.val; omega
  show V m c main_v11 (((cfg0.win 3).blk t).view.emb (ix3 l (ln16 p' k) (ln16 p j))) = _
  rw [e]; exact hf.wh l p' k p j

theorem blk4 (l : Fin 10) (p j : Fin 16) :
    (iblk m c 4 t : S10x256.Idx → EReal) (ix2 l (ln16 p j)) = A4 m c (ix2 l j) := by
  obtain ⟨-, -, -, -, -, -, -, -, e0, e1, -⟩ := idx_facts t
  have e : ((cfg0.win 4).blk t).view.emb (ix2 l (ln16 p j))
      = (ix2 l (⟨16 * p.val + j.val, by omega⟩ : Fin 256) : S10x256.Idx) := by
    funext a; apply Fin.ext
    match a with
    | ⟨0, _⟩ => show win0_4.index t (0 : Fin 2) * 10 + 1 * l.val = l.val; omega
    | ⟨1, _⟩ => show win0_4.index t (1 : Fin 2) * 256 + 1 * (p.val * 16 + j.val) = 16 * p.val + j.val; omega
  show V m c main_v21 (((cfg0.win 4).blk t).view.emb (ix2 l (ln16 p j))) = _
  rw [e]; exact hf.bh l p j

theorem blk5 (p' k p : Fin 16) (a : Fin 2) :
    (iblk m c 5 t : S256x128.Idx → EReal) (ix2 (ln16 p' k) (ln2 p a)) = δ p' p * A5 m c (ix2 a k) := by
  obtain ⟨-, -, -, -, -, -, -, -, -, -, e0, e1, -⟩ := idx_facts t
  have e : ((cfg0.win 5).blk t).view.emb (ix2 (ln16 p' k) (ln2 p a))
      = (ix2 (⟨16 * p'.val + k.val, by omega⟩ : Fin 256) (⟨2 * p.val + a.val, by omega⟩ : Fin 128) : S256x128.Idx) := by
    funext b; apply Fin.ext
    match b with
    | ⟨0, _⟩ => show win0_5.index t (0 : Fin 2) * 256 + 1 * (p'.val * 16 + k.val) = 16 * p'.val + k.val; omega
    | ⟨1, _⟩ => show win0_5.index t (1 : Fin 2) * 128 + 1 * (p.val * 2 + a.val) = 2 * p.val + a.val; omega
  show V m c main_v15 (((cfg0.win 5).blk t).view.emb (ix2 (ln16 p' k) (ln2 p a))) = _
  rw [e]; exact hf.wo p' k p a

theorem blk6 (p : Fin 16) (a : Fin 2) : (iblk m c 6 t : S128.Idx → EReal) (ix1 (ln2 p a)) = A6 m c (ix1 a) := by
  obtain ⟨-, -, -, -, -, -, -, -, -, -, -, -, e0, -⟩ := idx_facts t
  have e : ((cfg0.win 6).blk t).view.emb (ix1 (ln2 p a)) = (ix1 (⟨2 * p.val + a.val, by omega⟩ : Fin 128) : S128.Idx) := by
    funext b; apply Fin.ext
    match b with
    | ⟨0, _⟩ => show win0_6.index t (0 : Fin 1) * 128 + 1 * (p.val * 2 + a.val) = 2 * p.val + a.val; omega
  show V m c main_v25 (((cfg0.win 6).blk t).view.emb (ix1 (ln2 p a))) = _
  rw [e]; exact hf.bo p a

theorem blk0 (r : Fin 4096) (p : Fin 16) (k : Fin 4) :
    (iblk m c 0 t : S4096x64.Idx → EReal) (ix2 r (ln4 p k))
      = A0 m c (ix2 (⟨16 * (4096 * t.val + r.val) + p.val, by have := t.isLt; show _ < 2097152; have : t.val < 32 := t.isLt; omega⟩ : Fin 2097152) k) := by
  obtain ⟨e0, e1, -⟩ := idx_facts t
  have ht : t.val < 32 := t.isLt
  have e : ((cfg0.win 0).blk t).view.emb (ix2 r (ln4 p k))
      = (ix2 (⟨4096 * t.val + r.val, by omega⟩ : Fin 131072) (⟨4 * p.val + k.val, by omega⟩ : Fin 64) : S131072x64.Idx) := by
    funext b; apply Fin.ext
    match b with
    | ⟨0, _⟩ => show win0_0.index t (0 : Fin 2) * 4096 + 1 * r.val = 4096 * t.val + r.val; omega
    | ⟨1, _⟩ => show win0_0.index t (1 : Fin 2) * 64 + 1 * (p.val * 4 + k.val) = 4 * p.val + k.val; omega
  show V m c main_v26 (((cfg0.win 0).blk t).view.emb (ix2 r (ln4 p k))) = _
  rw [e]; exact hf.x2 _ p k

end blocks

/-! ## What a point writes back, at a lane -/

/-- The network's weights as row functions of the argument arrays. -/
abbrev netOf (c : Dev nD) (x : Fin 4 → EReal) : Fin 2 → EReal :=
  net (fun j k => A1 m c (ix2 j k)) (fun j => A2 m c (ix1 j)) (fun l j k => A3 m c (ix3 l j k)) (fun l j => A4 m c (ix2 l j))
    (fun a k => A5 m c (ix2 a k)) (fun a => A6 m c (ix1 a)) x

/-- Lane 2·p + a of row r of what point t writes back is output a of the network on original row 16·(4096·t + r) + p. -/
theorem flushed_lane {c : Dev nD} (hf : HostFacts m c) (t : Fin cfg0.N) (r : Fin 4096) (p : Fin 16) (a : Fin 2)
    (row : Fin 2097152) (hrow : row.val = 16 * (4096 * t.val + r.val) + p.val) :
    ((dats m 0 c).flushed 7 t : S4096x128.Idx → EReal) (ix2 r (ln2 p a)) = netOf (m := m) c (fun k => A0 m c (ix2 row k)) a := by
  show (cfg0.win 7).cut (grid0.coords t) ((dats m 0 c).after 7 t) (ix2 r (ln2 p a)) = _
  rw [after0_7]
  show out0_7 (iblk m c 0 t) (iblk m c 1 t) (iblk m c 2 t) (iblk m c 3 t) (iblk m c 4 t) (iblk m c 5 t) (iblk m c 6 t) (ix2 r (ln2 p a)) = _
  rw [body_apply (iblk m c 0 t) (iblk m c 1 t) (iblk m c 2 t) (iblk m c 3 t) (iblk m c 4 t) (iblk m c 5 t) (iblk m c 6 t)
    (fun j k => A1 m c (ix2 j k)) (fun j => A2 m c (ix1 j)) (fun l j k => A3 m c (ix3 l j k)) (fun l j => A4 m c (ix2 l j))
    (fun a k => A5 m c (ix2 a k)) (fun a => A6 m c (ix1 a))
    (blk1 hf t) (blk2 hf t) (blk3 hf t) (blk4 hf t) (blk5 hf t) (blk6 hf t) r p a]
  refine congrArg (fun x => netOf (m := m) c x a) (funext fun k => ?_)
  rw [blk0 hf t r p k]
  exact congrArg (fun q => A0 m c (ix2 q k)) (Fin.ext hrow.symm)

/-- An index of the result array is in point t's block iff each coordinate is in the block's range on its axis. -/
theorem mem_blk7 (t : Fin cfg0.N) (i : S131072x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v27).slice (win0_7.rect t)).set ↔ _
  rw [View.set_slice_whole, Rect.mem_set_unit]
  exact Iff.rfl

/-- Every block of the result array is some point's: point ⌊R / 4096⌋ covers packed row R. -/
theorem cover7 (i : S131072x128.Idx) : ∃ t : Fin cfg0.N, (cfg0.win 7).flush t = true ∧ i ∈ ((cfg0.win 7).blk t).view.set := by
  have h0 : (i 0).val < 131072 := (i 0).isLt
  have h1 : (i 1).val < 128 := (i 1).isLt
  refine ⟨(⟨(i 0).val / 4096, by show _ < 32; omega⟩ : Fin cfg0.N), flush0_7 _, ?_⟩
  rw [mem_blk7]
  obtain ⟨-, -, -, -, -, -, -, -, -, -, -, -, -, e0, e1⟩ := idx_facts (⟨(i 0).val / 4096, by show _ < 32; omega⟩ : Fin cfg0.N)
  intro a
  match a with
  | ⟨0, _⟩ =>
    show win0_7.index _ (0 : Fin 2) * 4096 ≤ (i 0).val ∧ (i 0).val < win0_7.index _ (0 : Fin 2) * 4096 + 4096
    rw [e0]; show (i 0).val / 4096 * 4096 ≤ (i 0).val ∧ (i 0).val < (i 0).val / 4096 * 4096 + 4096; omega
  | ⟨1, _⟩ =>
    show win0_7.index _ (1 : Fin 2) * 128 ≤ (i 1).val ∧ (i 1).val < win0_7.index _ (1 : Fin 2) * 128 + 128
    rw [e1]; omega

/-- THE ARRAY after the run, at a lane below 32: lane 2·p + a of packed row R is output a of the network on original
    row 16·R + p. -/
theorem arr_lane {c : Dev nD} (hf : HostFacts m c) (i : S131072x128.Idx) (row : Fin 2097152) (a : Fin 2) (p : ℕ)
    (hrow : row.val = 16 * (i 0).val + p) (hp : p < 16) (hcol : (i 1).val = 2 * p + a.val) :
    ((dats m 0 c).arrAt 7 cfg0.N : S131072x128.Idx → EReal) i = netOf (m := m) c (fun k => A0 m c (ix2 row k)) a := by
  refine (dats m 0 c).arrAt_forall_of_cover 7
    (fun (i : S131072x128.Idx) (v : EReal) => ∀ (row : Fin 2097152) (a : Fin 2) (p : ℕ), row.val = 16 * (i 0).val + p → p < 16 →
      (i 1).val = 2 * p + a.val → v = netOf (m := m) c (fun k => A0 m c (ix2 row k)) a)
    ?_ cover7 i row a p hrow hp hcol
  intro t _ y row a p hrow hp hcol
  obtain ⟨r, cc, rfl⟩ : ∃ (r : Fin 4096) (cc : Fin 128), y = ix2 r cc := ⟨y 0, y 1, eq_ix2 y⟩
  obtain ⟨-, -, -, -, -, -, -, -, -, -, -, -, -, e0, e1⟩ := idx_facts t
  have hr0 : ((((cfg0.win 7).blk t).view.emb (ix2 r cc) : S131072x128.Idx) 0).val = win0_7.index t (0 : Fin 2) * 4096 + 1 * r.val := rfl
  have hc0 : ((((cfg0.win 7).blk t).view.emb (ix2 r cc) : S131072x128.Idx) 1).val = win0_7.index t (1 : Fin 2) * 128 + 1 * cc.val := rfl
  have hcc : cc = ln2 ⟨p, hp⟩ a := by
    apply Fin.ext; show cc.val = p * 2 + a.val
    rw [hc0, e1] at hcol; omega
  subst hcc
  show (dats m 0 c).flushed 7 t (ix2 r (ln2 ⟨p, hp⟩ a)) = _
  exact flushed_lane hf t r ⟨p, hp⟩ a row (by rw [hr0, e0] at hrow; show row.val = 16 * (4096 * t.val + r.val) + p; omega)

/-! ## After the call: keep 32 lanes, unpack -/

/-- The program's result: the two host operations after the call read the array at (⌊row / 16⌋, 2·(row mod 16) + a),
    which is output a of the network on that row. -/
theorem result_eq {c : Dev nD} (hf : HostFacts m c) :
    (Pipeline.afterTail₀ cfgs (dats m) 0 (V0 m) [hostOps1] c main_v29 : S2097152x2.Idx → EReal)
      = netArr (A0 m c) (A1 m c) (A2 m c) (A3 m c) (A4 m c) (A5 m c) (A6 m c) := by
  unfold Pipeline.afterTail₀
  show StableHlo.after hostOps1 _ (Proc.devRef .tc main_v29) = _
  after_results
  funext i
  obtain ⟨row, a, rfl⟩ : ∃ (row : Fin 2097152) (a : Fin 2), i = ix2 row a := ⟨i 0, i 1, eq_ix2 i⟩
  have hrow : row.val < 2097152 := row.isLt
  have ha : a.val < 2 := a.isLt
  show shapeCast S2097152x2 (extractStridedSlice S131072x32 ![0, 0]
      (Pipeline.withArrays (cfgs 0).spec c (V0 m c) (fun w => (dats m 0 c).arrAt w (cfgs 0).N) (Proc.tc.devRef main_v27) : S131072x128.Idx → EReal)
      slices_S131072x128_S131072x32_0_0 : S131072x32.Idx → EReal) shapeCasts_S131072x32_S2097152x2 (ix2 row a) = _
  rw [shapeCast_apply _ shapeCasts_S131072x32_S2097152x2 (ix2 row a)
      (ix2 (⟨row.val / 16, by omega⟩ : Fin 131072) (⟨2 * (row.val % 16) + a.val, by omega⟩ : Fin 32) : S131072x32.Idx)
      (by rw [Shape.rowMajor_val_two, Shape.rowMajor_val_two]
          show row.val / 16 * 32 + (2 * (row.val % 16) + a.val) = row.val * 2 + a.val; omega)]
  rw [extractStridedSlice_apply ![0, 0] _ slices_S131072x128_S131072x32_0_0 _
      (ix2 (⟨row.val / 16, by omega⟩ : Fin 131072) (⟨2 * (row.val % 16) + a.val, by omega⟩ : Fin 128) : S131072x128.Idx)
      (fun b => by
        match b with
        | ⟨0, _⟩ => show row.val / 16 = 0 + row.val / 16; omega
        | ⟨1, _⟩ => show 2 * (row.val % 16) + a.val = 0 + (2 * (row.val % 16) + a.val); omega)]
  rw [Pipeline.withArrays_arr spec0 launch0.win.arr_inj c (V0 m c) (fun w => (dats m 0 c).arrAt w (cfgs 0).N) 7]
  exact arr_lane hf _ row a (row.val % 16) (by show row.val = 16 * (row.val / 16) + row.val % 16; omega) (by omega) rfl

/-- THE KERNEL'S RUN: every weakly fair execution ends with the result at the network of the seven arguments, the
    arguments unchanged. -/
theorem kernel_run (hf : ∀ c, HostFacts m c) :
    θ_run defs (onTc (τ := τ) (main (F := Ideal))) ⟨m, fun _ => 0, ρ⟩ (fun r => ∀ c : Dev nD,
      r.2.mem ((c.tc : Thread nD τ).loc main_v29) = netArr (A0 m c) (A1 m c) (A2 m c) (A3 m c) (A4 m c) (A5 m c) (A6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v29 (Pipeline.mem_restRefs_of main_v29 (by decide) (by decide))).trans (result_eq (hf c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.HostArrays.lean ====
/-
  The arrays the kernel's windows are staged from, read at an index.

  Before its one region the kernel program builds seven arrays out of its arguments: the batch regrouped sixteen rows
  to a row, each bias repeated sixteen times along a row (the head's bias then padded on the right), and each weight
  matrix W turned into the block-diagonal matrix kron(I₁₆, Wᵀ) (the head's then padded on the right), where I₁₆ is
  computed as "row number = column number".  Every statement here reads one of these arrays at an index written by
  coordinates, as an entry of the argument it was built from, times Kronecker's delta for the block-diagonal ones:

      packed batch   (R, 4p + k)            ↦  x (16R + p, k)
      repeated bias  16p + j                ↦  b j
      block weights  (16p' + k, 16p + j)    ↦  δ p' p · W (j, k)

  Each layout is first stated and read over an ARBITRARY argument array (a reshape keeps the row-major position, a
  broadcast forgets the coordinates of the axes it adds, a transpose swaps two coordinates, a product is read entry by
  entry, a pad is its operand inside the operand's extent); the array the region finds is then identified with that
  layout of the launched argument.  No entry needs to be finite.
-/
import proofs.«155588_j40321152975542_2_alg».proof.Proof.Gen.KernelIdeal.Frame
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.HostArrays

open Idealize.ShloMosaic Idealize.ShloMosaic.TcCoe Idealize.ShloMosaic.ValueIdx
open Cert.KernelIdeal

/-! ## The layout of each staged array, over an arbitrary argument array -/

/-- The batch regrouped: sixteen rows of four entries side by side in one row of sixty-four. -/
abbrev packX (x : S2097152x4.Idx → EReal) : S131072x64.Idx → EReal :=
  shapeCast S131072x64 x Gen.shapeCasts_S2097152x4_S131072x64

/-- Entry `4p + k` of packed row `R` is entry `k` of row `16R + p`. -/
theorem packX_apply (x : S2097152x4.Idx → EReal) (R : Fin 131072) (p : Fin 16) (k : Fin 4) :
    packX x (ix2 R (⟨4 * p.val + k.val, by omega⟩ : Fin 64)) = x (ix2 (⟨16 * R.val + p.val, by omega⟩ : Fin 2097152) k) :=
  shapeCast_apply x _ _ _ (by
    rw [Shape.rowMajor_val_two, Shape.rowMajor_val_two]
    show (16 * R.val + p.val) * 4 + k.val = R.val * 64 + (4 * p.val + k.val)
    omega)

/-- A bias of sixteen entries repeated sixteen times along one row of 256. -/
abbrev tile16 (b : S16.Idx → EReal) : S256.Idx → EReal :=
  shapeCast S256 (broadcastInDim S16x16 (![0, 1] : Fin 2 → Fin S16x16.rank) Gen.bcast_S1x16_S16x16_0_1
    (shapeCast S1x16 b Gen.shapeCasts_S16_S1x16)) Gen.shapeCasts_S16x16_S256

/-- Entry `16p + j` of the repeated bias is entry `j` of the bias. -/
theorem tile16_apply (b : S16.Idx → EReal) (p j : Fin 16) :
    tile16 b (ix1 (⟨16 * p.val + j.val, by omega⟩ : Fin 256)) = b (ix1 j) := by
  refine (shapeCast_apply _ Gen.shapeCasts_S16x16_S256 _ (ix2 p j) ?_).trans ?_
  · rw [Shape.rowMajor_val_two, Shape.rowMajor_val_one]
    show p.val * 16 + j.val = 16 * p.val + j.val
    omega
  refine (broadcastInDim_apply _ Gen.bcast_S1x16_S16x16_0_1 _ _ (ix2 (0 : Fin 1) j) ?_).trans ?_
  · intro a
    match a with
    | ⟨0, _⟩ => rfl
    | ⟨1, _⟩ => rfl
  exact shapeCast_a_1a_apply b Gen.shapeCasts_S16_S1x16 0 j

/-- The ten hidden biases, each repeated sixteen times along its row of 256. -/
abbrev tile10x16 (b : S10x16.Idx → EReal) : S10x256.Idx → EReal :=
  shapeCast S10x256 (broadcastInDim S1x10x16x16 (![0, 1, 2, 3] : Fin 4 → Fin S1x10x16x16.rank) Gen.bcast_S1x10x1x16_S1x10x16x16_0_1_2_3
    (shapeCast S1x10x1x16 b Gen.shapeCasts_S10x16_S1x10x1x16)) Gen.shapeCasts_S1x10x16x16_S10x256

/-- Entry `16p + j` of row `l` of the repeated biases is entry `j` of bias `l`. -/
theorem tile10x16_apply (b : S10x16.Idx → EReal) (l : Fin 10) (p j : Fin 16) :
    tile10x16 b (ix2 l (⟨16 * p.val + j.val, by omega⟩ : Fin 256)) = b (ix2 l j) := by
  refine (shapeCast_apply _ Gen.shapeCasts_S1x10x16x16_S10x256 _ (ix4 (0 : Fin 1) l p j) ?_).trans ?_
  · rw [Shape.rowMajor_val_four, Shape.rowMajor_val_two]
    show ((0 * 10 + l.val) * 16 + p.val) * 16 + j.val = l.val * 256 + (16 * p.val + j.val)
    omega
  refine (broadcastInDim_apply _ Gen.bcast_S1x10x1x16_S1x10x16x16_0_1_2_3 _ _ (ix4 (0 : Fin 1) l (0 : Fin 1) j) ?_).trans ?_
  · intro a
    match a with
    | ⟨0, _⟩ => rfl
    | ⟨1, _⟩ => rfl
    | ⟨2, _⟩ => rfl
    | ⟨3, _⟩ => rfl
  refine shapeCast_apply b Gen.shapeCasts_S10x16_S1x10x1x16 _ (ix2 l j) ?_
  rw [Shape.rowMajor_val_four, Shape.rowMajor_val_two]
  show l.val * 16 + j.val = ((0 * 10 + l.val) * 1 + 0) * 16 + j.val
  omega

/-- The head's bias of two entries repeated sixteen times, then filled up to 128 entries with a padding value. -/
abbrev tile2pad (b : S2.Idx → EReal) (z : S_.Idx → EReal) : S128.Idx → EReal :=
  pad S128 (![0] : Fin 1 → Nat) ![96] ![0]
    (shapeCast S32 (broadcastInDim S16x2 (![0, 1] : Fin 2 → Fin S16x2.rank) Gen.bcast_S1x2_S16x2_0_1
      (shapeCast S1x2 b Gen.shapeCasts_S2_S1x2)) Gen.shapeCasts_S16x2_S32)
    z Gen.pads_S32_S128_0960 Gen.h_S_

/-- Entry `2p + a` (one of the first thirty-two) is entry `a` of the bias, whatever the padding value. -/
theorem tile2pad_apply (b : S2.Idx → EReal) (z : S_.Idx → EReal) (p : Fin 16) (a : Fin 2) :
    tile2pad b z (ix1 (⟨2 * p.val + a.val, by omega⟩ : Fin 128)) = b (ix1 a) := by
  refine (pad_apply_of_inside _ _ _ _ z Gen.pads_S32_S128_0960 Gen.h_S_ _ (ix1 (⟨2 * p.val + a.val, by omega⟩ : Fin 32)) ?_).trans ?_
  · intro ax
    match ax with
    | ⟨0, _⟩ =>
      show 2 * p.val + a.val = 0 + (2 * p.val + a.val) * (0 + 1)
      omega
  refine (shapeCast_apply _ Gen.shapeCasts_S16x2_S32 _ (ix2 p a) ?_).trans ?_
  · rw [Shape.rowMajor_val_two, Shape.rowMajor_val_one]
    show p.val * 2 + a.val = 2 * p.val + a.val
    omega
  refine (broadcastInDim_apply _ Gen.bcast_S1x2_S16x2_0_1 _ _ (ix2 (0 : Fin 1) a) ?_).trans ?_
  · intro ax
    match ax with
    | ⟨0, _⟩ => rfl
    | ⟨1, _⟩ => rfl
  exact shapeCast_a_1a_apply b Gen.shapeCasts_S2_S1x2 0 a

/-! ## The identity mask and the block-diagonal weights -/

/-- Kronecker's delta on sixteen positions, as an extended real. -/
def δ (p' p : Fin 16) : EReal := if p' = p then 1 else 0

/-- The mask: one where the row number (plus a zero offset) equals the column number, zero elsewhere. -/
abbrev eye : S16x16.Idx → EReal :=
  uitofp (F := Ideal) .f32
    (cmpi .eq
      (addi (iotaInDim S16x16 32 0)
        (broadcastInDim S16x16 (![] : Fin 0 → Fin S16x16.rank) Gen.bcast_S_S16x16 (constantI S_ 32 0#32)))
      (iotaInDim S16x16 32 1))

/-- The comparison bit of the mask at `(a, b)`. -/
theorem eye_bit : ∀ a b : Fin 16,
    IntOp.cmpi .eq (IntOp.addi (BitVec.ofNat 32 a.val) 0#32) (BitVec.ofNat 32 b.val) = if a = b then 1#1 else 0#1 := by
  decide

/-- The mask is the delta. -/
theorem eye_apply (a b : Fin 16) : eye (ix2 a b) = δ a b := by
  show (((IntOp.cmpi .eq (IntOp.addi (BitVec.ofNat 32 a.val) 0#32) (BitVec.ofNat 32 b.val)).toNat : ℝ) : EReal) = _
  rw [eye_bit, δ]
  split <;> simp

/-- The Kronecker product of a 16 × 16 matrix with a 4 × 16 matrix, laid out as 64 × 256. -/
abbrev kron4 (e : S16x16.Idx → EReal) (w : S4x16.Idx → EReal) : S64x256.Idx → EReal :=
  shapeCast S64x256
    (mulf (F := Ideal) (φ := .f32)
      (broadcastInDim S16x4x16x16 (![0, 1, 2, 3] : Fin 4 → Fin S16x4x16x16.rank) Gen.bcast_S16x1x16x1_S16x4x16x16_0_1_2_3
        (broadcastInDim S16x1x16x1 (![0, 2] : Fin 2 → Fin S16x1x16x1.rank) Gen.bcast_S16x16_S16x1x16x1_0_2 e))
      (broadcastInDim S16x4x16x16 (![0, 1, 2, 3] : Fin 4 → Fin S16x4x16x16.rank) Gen.bcast_S1x4x1x16_S16x4x16x16_0_1_2_3
        (broadcastInDim S1x4x1x16 (![1, 3] : Fin 2 → Fin S1x4x1x16.rank) Gen.bcast_S4x16_S1x4x1x16_1_3 w)))
    Gen.shapeCasts_S16x4x16x16_S64x256

/-- Entry `(4p' + k, 16p + j)` of the product is `e (p', p) · w (k, j)`. -/
theorem kron4_apply (e : S16x16.Idx → EReal) (w : S4x16.Idx → EReal) (p' p : Fin 16) (k : Fin 4) (j : Fin 16) :
    kron4 e w (ix2 (⟨4 * p'.val + k.val, by omega⟩ : Fin 64) (⟨16 * p.val + j.val, by omega⟩ : Fin 256))
      = e (ix2 p' p) * w (ix2 k j) := by
  refine (shapeCast_apply _ Gen.shapeCasts_S16x4x16x16_S64x256 _ (ix4 p' k p j) ?_).trans ?_
  · rw [Shape.rowMajor_val_four, Shape.rowMajor_val_two]
    show ((p'.val * 4 + k.val) * 16 + p.val) * 16 + j.val = (4 * p'.val + k.val) * 256 + (16 * p.val + j.val)
    omega
  rw [mulf_apply]
  refine congrArg₂ (· * ·) ?_ ?_
  · refine (broadcastInDim_apply _ Gen.bcast_S16x1x16x1_S16x4x16x16_0_1_2_3 _ _ (ix4 p' (0 : Fin 1) p (0 : Fin 1)) ?_).trans ?_
    · intro a
      match a with
      | ⟨0, _⟩ => rfl
      | ⟨1, _⟩ => rfl
      | ⟨2, _⟩ => rfl
      | ⟨3, _⟩ => rfl
    refine broadcastInDim_apply _ Gen.bcast_S16x16_S16x1x16x1_0_2 _ _ (ix2 p' p) ?_
    intro a
    match a with
    | ⟨0, _⟩ => rfl
    | ⟨1, _⟩ => rfl
  · refine (broadcastInDim_apply _ Gen.bcast_S1x4x1x16_S16x4x16x16_0_1_2_3 _ _ (ix4 (0 : Fin 1) k (0 : Fin 1) j) ?_).trans ?_
    · intro a
      match a with
      | ⟨0, _⟩ => rfl
      | ⟨1, _⟩ => rfl
      | ⟨2, _⟩ => rfl
      | ⟨3, _⟩ => rfl
    refine broadcastInDim_apply _ Gen.bcast_S4x16_S1x4x1x16_1_3 _ _ (ix2 k j) ?_
    intro a
    match a with
    | ⟨0, _⟩ => rfl
    | ⟨1, _⟩ => rfl

/-- The Kronecker product of a 16 × 16 matrix with each of ten 16 × 16 matrices, laid out as 10 × 256 × 256. -/
abbrev kron10 (e : S16x16.Idx → EReal) (w : S10x16x16.Idx → EReal) : S10x256x256.Idx → EReal :=
  shapeCast S10x256x256
    (mulf (F := Ideal) (φ := .f32)
      (broadcastInDim S10x16x16x16x16 (![0, 1, 2, 3, 4] : Fin 5 → Fin S10x16x16x16x16.rank) Gen.bcast_S1x16x1x16x1_S10x16x16x16x16_0_1_2_3_4
        (broadcastInDim S1x16x1x16x1 (![1, 2, 3, 4] : Fin 4 → Fin S1x16x1x16x1.rank) Gen.bcast_S16x1x16x1_S1x16x1x16x1_1_2_3_4
          (broadcastInDim S16x1x16x1 (![0, 2] : Fin 2 → Fin S16x1x16x1.rank) Gen.bcast_S16x16_S16x1x16x1_0_2 e)))
      (broadcastInDim S10x16x16x16x16 (![0, 1, 2, 3, 4] : Fin 5 → Fin S10x16x16x16x16.rank) Gen.bcast_S10x1x16x1x16_S10x16x16x16x16_0_1_2_3_4
        (broadcastInDim S10x1x16x1x16 (![0, 2, 4] : Fin 3 → Fin S10x1x16x1x16.rank) Gen.bcast_S10x16x16_S10x1x16x1x16_0_2_4 w)))
    Gen.shapeCasts_S10x16x16x16x16_S10x256x256

/-- Entry `(l, 16p' + k, 16p + j)` of the product is `e (p', p) · w (l, k, j)`. -/
theorem kron10_apply (e : S16x16.Idx → EReal) (w : S10x16x16.Idx → EReal) (l : Fin 10) (p' p k j : Fin 16) :
    kron10 e w (ix3 l (⟨16 * p'.val + k.val, by omega⟩ : Fin 256) (⟨16 * p.val + j.val, by omega⟩ : Fin 256))
      = e (ix2 p' p) * w (ix3 l k j) := by
  refine (shapeCast_apply _ Gen.shapeCasts_S10x16x16x16x16_S10x256x256 _ (ix5 l p' k p j) ?_).trans ?_
  · rw [Shape.rowMajor_val_five, Shape.rowMajor_val_three]
    show (((l.val * 16 + p'.val) * 16 + k.val) * 16 + p.val) * 16 + j.val
      = (l.val * 256 + (16 * p'.val + k.val)) * 256 + (16 * p.val + j.val)
    omega
  rw [mulf_apply]
  refine congrArg₂ (· * ·) ?_ ?_
  · refine (broadcastInDim_apply _ Gen.bcast_S1x16x1x16x1_S10x16x16x16x16_0_1_2_3_4 _ _
      (ix5 (0 : Fin 1) p' (0 : Fin 1) p (0 : Fin 1)) ?_).trans ?_
    · intro a
      match a with
      | ⟨0, _⟩ => rfl
      | ⟨1, _⟩ => rfl
      | ⟨2, _⟩ => rfl
      | ⟨3, _⟩ => rfl
      | ⟨4, _⟩ => rfl
    refine (broadcastInDim_apply _ Gen.bcast_S16x1x16x1_S1x16x1x16x1_1_2_3_4 _ _
      (ix4 p' (0 : Fin 1) p (0 : Fin 1)) ?_).trans ?_
    · intro a
      match a with
      | ⟨0, _⟩ => rfl
      | ⟨1, _⟩ => rfl
      | ⟨2, _⟩ => rfl
      | ⟨3, _⟩ => rfl
    refine broadcastInDim_apply _ Gen.bcast_S16x16_S16x1x16x1_0_2 _ _ (ix2 p' p) ?_
    intro a
    match a with
    | ⟨0, _⟩ => rfl
    | ⟨1, _⟩ => rfl
  · refine (broadcastInDim_apply _ Gen.bcast_S10x1x16x1x16_S10x16x16x16x16_0_1_2_3_4 _ _
      (ix5 l (0 : Fin 1) k (0 : Fin 1) j) ?_).trans ?_
    · intro a
      match a with
      | ⟨0, _⟩ => rfl
      | ⟨1, _⟩ => rfl
      | ⟨2, _⟩ => rfl
      | ⟨3, _⟩ => rfl
      | ⟨4, _⟩ => rfl
    refine broadcastInDim_apply _ Gen.bcast_S10x16x16_S10x1x16x1x16_0_2_4 _ _ (ix3 l k j) ?_
    intro a
    match a with
    | ⟨0, _⟩ => rfl
    | ⟨1, _⟩ => rfl
    | ⟨2, _⟩ => rfl

/-- The Kronecker product of a 16 × 16 matrix with a 16 × 2 matrix, laid out as 256 × 32. -/
abbrev kron2 (e : S16x16.Idx → EReal) (w : S16x2.Idx → EReal) : S256x32.Idx → EReal :=
  shapeCast S256x32
    (mulf (F := Ideal) (φ := .f32)
      (broadcastInDim S16x16x16x2 (![0, 1, 2, 3] : Fin 4 → Fin S16x16x16x2.rank) Gen.bcast_S16x1x16x1_S16x16x16x2_0_1_2_3
        (broadcastInDim S16x1x16x1 (![0, 2] : Fin 2 → Fin S16x1x16x1.rank) Gen.bcast_S16x16_S16x1x16x1_0_2 e))
      (broadcastInDim S16x16x16x2 (![0, 1, 2, 3] : Fin 4 → Fin S16x16x16x2.rank) Gen.bcast_S1x16x1x2_S16x16x16x2_0_1_2_3
        (broadcastInDim S1x16x1x2 (![1, 3] : Fin 2 → Fin S1x16x1x2.rank) Gen.bcast_S16x2_S1x16x1x2_1_3 w)))
    Gen.shapeCasts_S16x16x16x2_S256x32

/-- Entry `(16p' + k, 2p + a)` of the product is `e (p', p) · w (k, a)`. -/
theorem kron2_apply (e : S16x16.Idx → EReal) (w : S16x2.Idx → EReal) (p' p k : Fin 16) (a : Fin 2) :
    kron2 e w (ix2 (⟨16 * p'.val + k.val, by omega⟩ : Fin 256) (⟨2 * p.val + a.val, by omega⟩ : Fin 32))
      = e (ix2 p' p) * w (ix2 k a) := by
  refine (shapeCast_apply _ Gen.shapeCasts_S16x16x16x2_S256x32 _ (ix4 p' k p a) ?_).trans ?_
  · rw [Shape.rowMajor_val_four, Shape.rowMajor_val_two]
    show ((p'.val * 16 + k.val) * 16 + p.val) * 2 + a.val = (16 * p'.val + k.val) * 32 + (2 * p.val + a.val)
    omega
  rw [mulf_apply]
  refine congrArg₂ (· * ·) ?_ ?_
  · refine (broadcastInDim_apply _ Gen.bcast_S16x1x16x1_S16x16x16x2_0_1_2_3 _ _ (ix4 p' (0 : Fin 1) p (0 : Fin 1)) ?_).trans ?_
    · intro ax
      match ax with
      | ⟨0, _⟩ => rfl
      | ⟨1, _⟩ => rfl
      | ⟨2, _⟩ => rfl
      | ⟨3, _⟩ => rfl
    refine broadcastInDim_apply _ Gen.bcast_S16x16_S16x1x16x1_0_2 _ _ (ix2 p' p) ?_
    intro ax
    match ax with
    | ⟨0, _⟩ => rfl
    | ⟨1, _⟩ => rfl
  · refine (broadcastInDim_apply _ Gen.bcast_S1x16x1x2_S16x16x16x2_0_1_2_3 _ _ (ix4 (0 : Fin 1) k (0 : Fin 1) a) ?_).trans ?_
    · intro ax
      match ax with
      | ⟨0, _⟩ => rfl
      | ⟨1, _⟩ => rfl
      | ⟨2, _⟩ => rfl
      | ⟨3, _⟩ => rfl
    refine broadcastInDim_apply _ Gen.bcast_S16x2_S1x16x1x2_1_3 _ _ (ix2 k a) ?_
    intro ax
    match ax with
    | ⟨0, _⟩ => rfl
    | ⟨1, _⟩ => rfl

/-- A 256 × 32 matrix filled up to 256 × 128 with a padding value on the right. -/
abbrev padCols (x : S256x32.Idx → EReal) (z : S_.Idx → EReal) : S256x128.Idx → EReal :=
  pad S256x128 (![0, 0] : Fin 2 → Nat) ![0, 96] ![0, 0] x z Gen.pads_S256x32_S256x128_000_0960 Gen.h_S_

/-- Inside the first thirty-two columns the padded matrix is the matrix. -/
theorem padCols_apply (x : S256x32.Idx → EReal) (z : S_.Idx → EReal) (r : Fin 256) (q : Fin 32) :
    padCols x z (ix2 r (⟨q.val, by omega⟩ : Fin 128)) = x (ix2 r q) := by
  refine pad_apply_of_inside _ _ _ _ z Gen.pads_S256x32_S256x128_000_0960 Gen.h_S_ _ (ix2 r q) ?_
  intro ax
  match ax with
  | ⟨0, _⟩ =>
    show r.val = 0 + r.val * (0 + 1)
    omega
  | ⟨1, _⟩ =>
    show q.val = 0 + q.val * (0 + 1)
    omega

/-! ## The staged arrays as the region finds them -/

variable (m : (ℓ : Loc nD τ sig) → Buf (Elt Ideal) ℓ) (c : Dev nD)

theorem v26_eq : (Gen.V m c main_v26 : S131072x64.Idx → EReal)
    = packX (m ((c : Thread nD τ).loc main_arg0) : S2097152x4.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

theorem v18_eq : (Gen.V m c main_v18 : S256.Idx → EReal)
    = tile16 (m ((c : Thread nD τ).loc main_arg2) : S16.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

theorem v21_eq : (Gen.V m c main_v21 : S10x256.Idx → EReal)
    = tile10x16 (m ((c : Thread nD τ).loc main_arg4) : S10x16.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

theorem v25_eq : (Gen.V m c main_v25 : S128.Idx → EReal)
    = tile2pad (m ((c : Thread nD τ).loc main_arg6) : S2.Idx → EReal) (sitofp (F := Ideal) .f32 (constantI S_ 32 0#32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

/-- The packed batch: entry `4p + k` of packed row `R` is entry `k` of row `16R + p` of the batch. -/
theorem x2 (R : Fin 131072) (p : Fin 16) (k : Fin 4) :
    (Gen.V m c main_v26 : S131072x64.Idx → EReal) (ix2 R (⟨4 * p.val + k.val, by omega⟩ : Fin 64))
      = (m ((c : Thread nD τ).loc main_arg0) : S2097152x4.Idx → EReal) (ix2 (⟨16 * R.val + p.val, by omega⟩ : Fin 2097152) k) := by
  rw [v26_eq]; exact packX_apply _ R p k

/-- The first layer's bias, repeated: entry `16p + j` is entry `j` of the bias. -/
theorem b1 (p j : Fin 16) :
    (Gen.V m c main_v18 : S256.Idx → EReal) (ix1 (⟨16 * p.val + j.val, by omega⟩ : Fin 256))
      = (m ((c : Thread nD τ).loc main_arg2) : S16.Idx → EReal) (ix1 j) := by
  rw [v18_eq]; exact tile16_apply _ p j

/-- The hidden layers' biases, repeated: entry `16p + j` of row `l` is entry `j` of bias `l`. -/
theorem bh (l : Fin 10) (p j : Fin 16) :
    (Gen.V m c main_v21 : S10x256.Idx → EReal) (ix2 l (⟨16 * p.val + j.val, by omega⟩ : Fin 256))
      = (m ((c : Thread nD τ).loc main_arg4) : S10x16.Idx → EReal) (ix2 l j) := by
  rw [v21_eq]; exact tile10x16_apply _ l p j

/-- The head's bias, repeated and padded: entry `2p + a` is entry `a` of the bias. -/
theorem bo (p : Fin 16) (a : Fin 2) :
    (Gen.V m c main_v25 : S128.Idx → EReal) (ix1 (⟨2 * p.val + a.val, by omega⟩ : Fin 128))
      = (m ((c : Thread nD τ).loc main_arg6) : S2.Idx → EReal) (ix1 a) := by
  rw [v25_eq]; exact tile2pad_apply _ _ p a

theorem v8_eq : (Gen.V m c main_v8 : S64x256.Idx → EReal)
    = truncf (F := Ideal) (φ := .f32) .bf16
        (kron4 eye (transpose S4x16 [1, 0] (m ((c : Thread nD τ).loc main_arg1) : S16x4.Idx → EReal) Gen.transposes_S16x4_S4x16_1_0))
        Gen.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

theorem v11_eq : (Gen.V m c main_v11 : S10x256x256.Idx → EReal)
    = truncf (F := Ideal) (φ := .f32) .bf16
        (kron10 eye (transpose S10x16x16 [0, 2, 1] (m ((c : Thread nD τ).loc main_arg3) : S10x16x16.Idx → EReal) Gen.transposes_S10x16x16_S10x16x16_0_2_1))
        Gen.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

theorem v15_eq : (Gen.V m c main_v15 : S256x128.Idx → EReal)
    = truncf (F := Ideal) (φ := .f32) .bf16
        (padCols (kron2 eye (transpose S16x2 [1, 0] (m ((c : Thread nD τ).loc main_arg5) : S2x16.Idx → EReal) Gen.transposes_S2x16_S16x2_1_0))
          (sitofp (F := Ideal) .f32 (constantI S_ 32 0#32)))
        Gen.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

/-- The first layer's block-diagonal weights: entry `(4p' + k, 16p + j)` is `δ p' p · W₁ (j, k)`. -/
theorem w1 (p' p : Fin 16) (k : Fin 4) (j : Fin 16) :
    (Gen.V m c main_v8 : S64x256.Idx → EReal)
        (ix2 (⟨4 * p'.val + k.val, by omega⟩ : Fin 64) (⟨16 * p.val + j.val, by omega⟩ : Fin 256))
      = δ p' p * (m ((c : Thread nD τ).loc main_arg1) : S16x4.Idx → EReal) (ix2 j k) := by
  rw [v8_eq]
  refine (kron4_apply _ _ p' p k j).trans ?_
  rw [eye_apply, transpose_ix2_apply]

/-- The hidden layers' block-diagonal weights: entry `(l, 16p' + k, 16p + j)` is `δ p' p · W_l (j, k)`. -/
theorem wh (l : Fin 10) (p' p k j : Fin 16) :
    (Gen.V m c main_v11 : S10x256x256.Idx → EReal)
        (ix3 l (⟨16 * p'.val + k.val, by omega⟩ : Fin 256) (⟨16 * p.val + j.val, by omega⟩ : Fin 256))
      = δ p' p * (m ((c : Thread nD τ).loc main_arg3) : S10x16x16.Idx → EReal) (ix3 l j k) := by
  rw [v11_eq]
  refine (kron10_apply _ _ l p' p k j).trans ?_
  rw [eye_apply, transpose_ix3_021_apply]

/-- The head's block-diagonal weights, inside the first thirty-two columns: entry `(16p' + k, 2p + a)` is
    `δ p' p · W_o (a, k)`. -/
theorem wo (p' p k : Fin 16) (a : Fin 2) :
    (Gen.V m c main_v15 : S256x128.Idx → EReal)
        (ix2 (⟨16 * p'.val + k.val, by omega⟩ : Fin 256) (⟨2 * p.val + a.val, by omega⟩ : Fin 128))
      = δ p' p * (m ((c : Thread nD τ).loc main_arg5) : S2x16.Idx → EReal) (ix2 a k) := by
  rw [v15_eq]
  refine (padCols_apply _ _ (⟨16 * p'.val + k.val, by omega⟩ : Fin 256) (⟨2 * p.val + a.val, by omega⟩ : Fin 32)).trans ?_
  refine (kron2_apply _ _ p' p k a).trans ?_
  rw [eye_apply, transpose_ix2_apply]

end Cert.KernelIdeal.HostArrays
end
-- ==== Proof.RefNet.lean ====
/-
  The reference program of this certificate, read as the row function of the specification.

  The reference computes the multilayer perceptron with ordinary dense operations on the whole batch: every
  affine layer is a contraction of the activations (rows × features) with the TRANSPOSE of a weight matrix,
  followed by the addition of the bias broadcast along the rows; every clip is a maximum against the zero word
  broadcast to the whole array.  The hidden weight matrices and biases are cut out of the two stacks by a slice
  of one layer followed by a reshape that drops the leading axis of size one.

  Read at the entry (r, j) every such layer depends on row r of its input only:

      (h · Wᵀ) (r, j) = ∑ₖ h (r, k) · W (j, k),      (broadcast b) (r, j) = b j,

  and entry (j, k) of slice l of a stack is entry (l, j, k) of the stack: the reshape sends the pair (j, k) to
  the position 16 j + k of the flattened slice, whose quotient and remainder by 16 are j and k again.  So each
  layer, read at (r, j), is the corresponding row operation of the specification applied to row r of the
  previous stage.  The lemmas below say this for the first layer, for the first half of each residual block, for
  its second half (which adds the block's input after the bias) and for the head; each is stated over an
  ARBITRARY row function of the stage it reads, so that the eleven stages are chained without ever writing the
  network out (a residual block reads its input twice).
-/
import proofs.«155588_j40321152975542_2_alg».proof.Proof.Gen.ReferenceIdeal.Read
import proofs.«155588_j40321152975542_2_alg».proof.Proof.Spec

noncomputable section

namespace Cert.RefNet

open Cert.ReferenceIdeal Cert.ReferenceIdeal.Gen Cert.ReferenceIdeal.Read Idealize.ShloMosaic Idealize.ShloMosaic.TcCoe
  Idealize.SL.Sem Idealize.ShloMosaic.ValueIdx

/-- Two rank-2 indices with the same two coordinates are equal. -/
local macro "ix_two" : tactic => `(tactic| (funext a; match a with | ⟨0, _⟩ => rfl | ⟨1, _⟩ => rfl))

/-- Entry (j, k) of a 16 × 16 slice, found through the reshape: position 16 j + k has quotient j and remainder k. -/
local macro "ix_weight " j:term ", " k:term : tactic => `(tactic| (funext a; apply Fin.ext; match a with
  | ⟨0, _⟩ => rfl
  | ⟨1, _⟩ => (show (($j).val * 16 + ($k).val) / 16 % 16 = ($j).val; have := ($j).isLt; have := ($k).isLt; omega)
  | ⟨2, _⟩ => (show (($j).val * 16 + ($k).val) % 16 = ($k).val; have := ($j).isLt; have := ($k).isLt; omega)))

/-- Entry j of a bias slice, found through the reshape: j is its own remainder by 16. -/
local macro "ix_bias " j:term : tactic => `(tactic| (funext a; apply Fin.ext; match a with
  | ⟨0, _⟩ => rfl
  | ⟨1, _⟩ => (show (($j).val) % 16 = ($j).val; have := ($j).isLt; omega)))

variable (x0 : (⟨S2097152x4, .f32⟩ : BufTy).Contents (Elt Ideal)) (x1 : (⟨S16x4, .f32⟩ : BufTy).Contents (Elt Ideal))
  (x2 : (⟨S16, .f32⟩ : BufTy).Contents (Elt Ideal)) (x3 : (⟨S10x16x16, .f32⟩ : BufTy).Contents (Elt Ideal))
  (x4 : (⟨S10x16, .f32⟩ : BufTy).Contents (Elt Ideal)) (x5 : (⟨S2x16, .f32⟩ : BufTy).Contents (Elt Ideal))
  (x6 : (⟨S2, .f32⟩ : BufTy).Contents (Elt Ideal))

/-! ## The first layer -/

/-- The first layer at (r, j): the affine layer of the 16 × 4 matrix on row r of the batch, clipped at zero. -/
theorem first_layer (r : Fin 2097152) (j : Fin 16) :
    val_main_v5 (F := Ideal) x0 x1 x2 (ix2 r j)
      = Cert.Mlp.half (fun j k => x1 (ix2 j k)) (fun j => x2 (ix1 j)) (fun k => x0 (ix2 r k)) j := by
  rw [val_main_v5_apply, val_main_v4_apply, val_main_v1_apply, val_main_v3_apply, val_main_v2_apply,
    val_main_call0_v0_apply, val_main_call0_cst_apply]
  simp only [val_main_v0_apply, Ideal.maximumf_def, Ideal.addf_def, Ideal.ofBits_def]
  have e1 : ∀ k : Fin 4, lidx_main_v1 (ix2 r j) k = ix2 r k := fun k => by ix_two
  have e2 : ∀ k : Fin 4, idx_main_v0 (ridx_main_v1 (ix2 r j) k) = ix2 j k := fun k => by ix_two
  have e3 : idx_main_v2 (idx_main_v3 (ix2 r j)) = ix1 j := funext fun a => by
    match a with
    | ⟨0, _⟩ => rfl
  simp only [e1, e2, e3]
  rfl

/-! ## The first half of each residual block

  The stage read is any array whose row r is `H r`; the result's row r is the affine layer of weight slice 2i on
  `H r`, clipped at zero. -/

/-- Block 0, first half (weight slice 0), at (r, j). -/
theorem half_0 (H : Fin 2097152 → Fin 16 → EReal)
    (hin : ∀ r k, val_main_v5 (F := Ideal) x0 x1 x2 (ix2 r k) = H r k) (r : Fin 2097152) (j : Fin 16) :
    val_main_v19 (F := Ideal) x0 x1 x2 x3 x4 (ix2 r j)
      = Cert.Mlp.half (fun j k => x3 (ix3 0 j k)) (fun j => x4 (ix2 0 j)) (H r) j := by
  rw [val_main_v19_apply, val_main_v18_apply, val_main_v15_apply, val_main_v17_apply, val_main_v16_apply,
    val_main_v9_apply, val_main_v8_apply, val_main_call1_v0_apply, val_main_call1_cst_apply]
  simp only [val_main_v14_apply, val_main_v7_apply, val_main_v6_apply, Ideal.maximumf_def, Ideal.addf_def,
    Ideal.ofBits_def]
  have e1 : ∀ k : Fin 16, lidx_main_v15 (ix2 r j) k = ix2 r k := fun k => by ix_two
  have e2 : ∀ k : Fin 16, idx_main_v6 (idx_main_v7 (idx_main_v14 (ridx_main_v15 (ix2 r j) k))) = ix3 0 j k :=
    fun k => by ix_weight j, k
  have e3 : idx_main_v8 (idx_main_v9 (idx_main_v16 (idx_main_v17 (ix2 r j)))) = ix2 0 j := by ix_bias j
  simp only [e1, e2, e3, hin]
  rfl

/-- Block 1, first half (weight slice 2), at (r, j). -/
theorem half_1 (H : Fin 2097152 → Fin 16 → EReal)
    (hin : ∀ r k, val_main_v26 (F := Ideal) x0 x1 x2 x3 x4 (ix2 r k) = H r k) (r : Fin 2097152) (j : Fin 16) :
    val_main_v40 (F := Ideal) x0 x1 x2 x3 x4 (ix2 r j)
      = Cert.Mlp.half (fun j k => x3 (ix3 2 j k)) (fun j => x4 (ix2 2 j)) (H r) j := by
  rw [val_main_v40_apply, val_main_v39_apply, val_main_v36_apply, val_main_v38_apply, val_main_v37_apply,
    val_main_v30_apply, val_main_v29_apply, val_main_call3_v0_apply, val_main_call3_cst_apply]
  simp only [val_main_v35_apply, val_main_v28_apply, val_main_v27_apply, Ideal.maximumf_def, Ideal.addf_def,
    Ideal.ofBits_def]
  have e1 : ∀ k : Fin 16, lidx_main_v36 (ix2 r j) k = ix2 r k := fun k => by ix_two
  have e2 : ∀ k : Fin 16, idx_main_v27 (idx_main_v28 (idx_main_v35 (ridx_main_v36 (ix2 r j) k))) = ix3 2 j k :=
    fun k => by ix_weight j, k
  have e3 : idx_main_v29 (idx_main_v30 (idx_main_v37 (idx_main_v38 (ix2 r j)))) = ix2 2 j := by ix_bias j
  simp only [e1, e2, e3, hin]
  rfl

/-- Block 2, first half (weight slice 4), at (r, j). -/
theorem half_2 (H : Fin 2097152 → Fin 16 → EReal)
    (hin : ∀ r k, val_main_v47 (F := Ideal) x0 x1 x2 x3 x4 (ix2 r k) = H r k) (r : Fin 2097152) (j : Fin 16) :
    val_main_v61 (F := Ideal) x0 x1 x2 x3 x4 (ix2 r j)
      = Cert.Mlp.half (fun j k => x3 (ix3 4 j k)) (fun j => x4 (ix2 4 j)) (H r) j := by
  rw [val_main_v61_apply, val_main_v60_apply, val_main_v57_apply, val_main_v59_apply, val_main_v58_apply,
    val_main_v51_apply, val_main_v50_apply, val_main_call5_v0_apply, val_main_call5_cst_apply]
  simp only [val_main_v56_apply, val_main_v49_apply, val_main_v48_apply, Ideal.maximumf_def, Ideal.addf_def,
    Ideal.ofBits_def]
  have e1 : ∀ k : Fin 16, lidx_main_v57 (ix2 r j) k = ix2 r k := fun k => by ix_two
  have e2 : ∀ k : Fin 16, idx_main_v48 (idx_main_v49 (idx_main_v56 (ridx_main_v57 (ix2 r j) k))) = ix3 4 j k :=
    fun k => by ix_weight j, k
  have e3 : idx_main_v50 (idx_main_v51 (idx_main_v58 (idx_main_v59 (ix2 r j)))) = ix2 4 j := by ix_bias j
  simp only [e1, e2, e3, hin]
  rfl

/-- Block 3, first half (weight slice 6), at (r, j). -/
theorem half_3 (H : Fin 2097152 → Fin 16 → EReal)
    (hin : ∀ r k, val_main_v68 (F := Ideal) x0 x1 x2 x3 x4 (ix2 r k) = H r k) (r : Fin 2097152) (j : Fin 16) :
    val_main_v82 (F := Ideal) x0 x1 x2 x3 x4 (ix2 r j)
      = Cert.Mlp.half (fun j k => x3 (ix3 6 j k)) (fun j => x4 (ix2 6 j)) (H r) j := by
  rw [val_main_v82_apply, val_main_v81_apply, val_main_v78_apply, val_main_v80_apply, val_main_v79_apply,
    val_main_v72_apply, val_main_v71_apply, val_main_call7_v0_apply, val_main_call7_cst_apply]
  simp only [val_main_v77_apply, val_main_v70_apply, val_main_v69_apply, Ideal.maximumf_def, Ideal.addf_def,
    Ideal.ofBits_def]
  have e1 : ∀ k : Fin 16, lidx_main_v78 (ix2 r j) k = ix2 r k := fun k => by ix_two
  have e2 : ∀ k : Fin 16, idx_main_v69 (idx_main_v70 (idx_main_v77 (ridx_main_v78 (ix2 r j) k))) = ix3 6 j k :=
    fun k => by ix_weight j, k
  have e3 : idx_main_v71 (idx_main_v72 (idx_main_v79 (idx_main_v80 (ix2 r j)))) = ix2 6 j := by ix_bias j
  simp only [e1, e2, e3, hin]
  rfl

/-- Block 4, first half (weight slice 8), at (r, j). -/
theorem half_4 (H : Fin 2097152 → Fin 16 → EReal)
    (hin : ∀ r k, val_main_v89 (F := Ideal) x0 x1 x2 x3 x4 (ix2 r k) = H r k) (r : Fin 2097152) (j : Fin 16) :
    val_main_v103 (F := Ideal) x0 x1 x2 x3 x4 (ix2 r j)
      = Cert.Mlp.half (fun j k => x3 (ix3 8 j k)) (fun j => x4 (ix2 8 j)) (H r) j := by
  rw [val_main_v103_apply, val_main_v102_apply, val_main_v99_apply, val_main_v101_apply, val_main_v100_apply,
    val_main_v93_apply, val_main_v92_apply, val_main_call9_v0_apply, val_main_call9_cst_apply]
  simp only [val_main_v98_apply, val_main_v91_apply, val_main_v90_apply, Ideal.maximumf_def, Ideal.addf_def,
    Ideal.ofBits_def]
  have e1 : ∀ k : Fin 16, lidx_main_v99 (ix2 r j) k = ix2 r k := fun k => by ix_two
  have e2 : ∀ k : Fin 16, idx_main_v90 (idx_main_v91 (idx_main_v98 (ridx_main_v99 (ix2 r j) k))) = ix3 8 j k :=
    fun k => by ix_weight j, k
  have e3 : idx_main_v92 (idx_main_v93 (idx_main_v100 (idx_main_v101 (ix2 r j)))) = ix2 8 j := by ix_bias j
  simp only [e1, e2, e3, hin]
  rfl

/-! ## The second half of each residual block

  The block's input is any array whose row r is `H r`, and the stage read is the block's first half on it; the
  result's row r is the residual block of weight slices 2i and 2i+1 on `H r`: the second affine layer on the first
  half's row, plus `H r` (added after the bias), clipped at zero. -/

/-- Block 0, second half (weight slice 1), at (r, j). -/
theorem res_0 (H : Fin 2097152 → Fin 16 → EReal)
    (hin : ∀ r k, val_main_v5 (F := Ideal) x0 x1 x2 (ix2 r k) = H r k)
    (hmid : ∀ r k, val_main_v19 (F := Ideal) x0 x1 x2 x3 x4 (ix2 r k)
      = Cert.Mlp.half (fun j k => x3 (ix3 0 j k)) (fun j => x4 (ix2 0 j)) (H r) k)
    (r : Fin 2097152) (j : Fin 16) :
    val_main_v26 (F := Ideal) x0 x1 x2 x3 x4 (ix2 r j)
      = Cert.Mlp.resBlock (fun j k => x3 (ix3 0 j k)) (fun j => x4 (ix2 0 j)) (fun j k => x3 (ix3 1 j k))
          (fun j => x4 (ix2 1 j)) (H r) j := by
  rw [val_main_v26_apply, val_main_v25_apply, val_main_v24_apply, val_main_v21_apply, val_main_v23_apply,
    val_main_v22_apply, val_main_v13_apply, val_main_v12_apply, val_main_call2_v0_apply, val_main_call2_cst_apply]
  simp only [val_main_v20_apply, val_main_v11_apply, val_main_v10_apply, Ideal.maximumf_def, Ideal.addf_def,
    Ideal.ofBits_def]
  have e1 : ∀ k : Fin 16, lidx_main_v21 (ix2 r j) k = ix2 r k := fun k => by ix_two
  have e2 : ∀ k : Fin 16, idx_main_v10 (idx_main_v11 (idx_main_v20 (ridx_main_v21 (ix2 r j) k))) = ix3 1 j k :=
    fun k => by ix_weight j, k
  have e3 : idx_main_v12 (idx_main_v13 (idx_main_v22 (idx_main_v23 (ix2 r j)))) = ix2 1 j := by ix_bias j
  simp only [e1, e2, e3, hmid, hin]
  rfl

/-- Block 1, second half (weight slice 3), at (r, j). -/
theorem res_1 (H : Fin 2097152 → Fin 16 → EReal)
    (hin : ∀ r k, val_main_v26 (F := Ideal) x0 x1 x2 x3 x4 (ix2 r k) = H r k)
    (hmid : ∀ r k, val_main_v40 (F := Ideal) x0 x1 x2 x3 x4 (ix2 r k)
      = Cert.Mlp.half (fun j k => x3 (ix3 2 j k)) (fun j => x4 (ix2 2 j)) (H r) k)
    (r : Fin 2097152) (j : Fin 16) :
    val_main_v47 (F := Ideal) x0 x1 x2 x3 x4 (ix2 r j)
      = Cert.Mlp.resBlock (fun j k => x3 (ix3 2 j k)) (fun j => x4 (ix2 2 j)) (fun j k => x3 (ix3 3 j k))
          (fun j => x4 (ix2 3 j)) (H r) j := by
  rw [val_main_v47_apply, val_main_v46_apply, val_main_v45_apply, val_main_v42_apply, val_main_v44_apply,
    val_main_v43_apply, val_main_v34_apply, val_main_v33_apply, val_main_call4_v0_apply, val_main_call4_cst_apply]
  simp only [val_main_v41_apply, val_main_v32_apply, val_main_v31_apply, Ideal.maximumf_def, Ideal.addf_def,
    Ideal.ofBits_def]
  have e1 : ∀ k : Fin 16, lidx_main_v42 (ix2 r j) k = ix2 r k := fun k => by ix_two
  have e2 : ∀ k : Fin 16, idx_main_v31 (idx_main_v32 (idx_main_v41 (ridx_main_v42 (ix2 r j) k))) = ix3 3 j k :=
    fun k => by ix_weight j, k
  have e3 : idx_main_v33 (idx_main_v34 (idx_main_v43 (idx_main_v44 (ix2 r j)))) = ix2 3 j := by ix_bias j
  simp only [e1, e2, e3, hmid, hin]
  rfl

/-- Block 2, second half (weight slice 5), at (r, j). -/
theorem res_2 (H : Fin 2097152 → Fin 16 → EReal)
    (hin : ∀ r k, val_main_v47 (F := Ideal) x0 x1 x2 x3 x4 (ix2 r k) = H r k)
    (hmid : ∀ r k, val_main_v61 (F := Ideal) x0 x1 x2 x3 x4 (ix2 r k)
      = Cert.Mlp.half (fun j k => x3 (ix3 4 j k)) (fun j => x4 (ix2 4 j)) (H r) k)
    (r : Fin 2097152) (j : Fin 16) :
    val_main_v68 (F := Ideal) x0 x1 x2 x3 x4 (ix2 r j)
      = Cert.Mlp.resBlock (fun j k => x3 (ix3 4 j k)) (fun j => x4 (ix2 4 j)) (fun j k => x3 (ix3 5 j k))
          (fun j => x4 (ix2 5 j)) (H r) j := by
  rw [val_main_v68_apply, val_main_v67_apply, val_main_v66_apply, val_main_v63_apply, val_main_v65_apply,
    val_main_v64_apply, val_main_v55_apply, val_main_v54_apply, val_main_call6_v0_apply, val_main_call6_cst_apply]
  simp only [val_main_v62_apply, val_main_v53_apply, val_main_v52_apply, Ideal.maximumf_def, Ideal.addf_def,
    Ideal.ofBits_def]
  have e1 : ∀ k : Fin 16, lidx_main_v63 (ix2 r j) k = ix2 r k := fun k => by ix_two
  have e2 : ∀ k : Fin 16, idx_main_v52 (idx_main_v53 (idx_main_v62 (ridx_main_v63 (ix2 r j) k))) = ix3 5 j k :=
    fun k => by ix_weight j, k
  have e3 : idx_main_v54 (idx_main_v55 (idx_main_v64 (idx_main_v65 (ix2 r j)))) = ix2 5 j := by ix_bias j
  simp only [e1, e2, e3, hmid, hin]
  rfl

/-- Block 3, second half (weight slice 7), at (r, j). -/
theorem res_3 (H : Fin 2097152 → Fin 16 → EReal)
    (hin : ∀ r k, val_main_v68 (F := Ideal) x0 x1 x2 x3 x4 (ix2 r k) = H r k)
    (hmid : ∀ r k, val_main_v82 (F := Ideal) x0 x1 x2 x3 x4 (ix2 r k)
      = Cert.Mlp.half (fun j k => x3 (ix3 6 j k)) (fun j => x4 (ix2 6 j)) (H r) k)
    (r : Fin 2097152) (j : Fin 16) :
    val_main_v89 (F := Ideal) x0 x1 x2 x3 x4 (ix2 r j)
      = Cert.Mlp.resBlock (fun j k => x3 (ix3 6 j k)) (fun j => x4 (ix2 6 j)) (fun j k => x3 (ix3 7 j k))
          (fun j => x4 (ix2 7 j)) (H r) j := by
  rw [val_main_v89_apply, val_main_v88_apply, val_main_v87_apply, val_main_v84_apply, val_main_v86_apply,
    val_main_v85_apply, val_main_v76_apply, val_main_v75_apply, val_main_call8_v0_apply, val_main_call8_cst_apply]
  simp only [val_main_v83_apply, val_main_v74_apply, val_main_v73_apply, Ideal.maximumf_def, Ideal.addf_def,
    Ideal.ofBits_def]
  have e1 : ∀ k : Fin 16, lidx_main_v84 (ix2 r j) k = ix2 r k := fun k => by ix_two
  have e2 : ∀ k : Fin 16, idx_main_v73 (idx_main_v74 (idx_main_v83 (ridx_main_v84 (ix2 r j) k))) = ix3 7 j k :=
    fun k => by ix_weight j, k
  have e3 : idx_main_v75 (idx_main_v76 (idx_main_v85 (idx_main_v86 (ix2 r j)))) = ix2 7 j := by ix_bias j
  simp only [e1, e2, e3, hmid, hin]
  rfl

/-- Block 4, second half (weight slice 9), at (r, j). -/
theorem res_4 (H : Fin 2097152 → Fin 16 → EReal)
    (hin : ∀ r k, val_main_v89 (F := Ideal) x0 x1 x2 x3 x4 (ix2 r k) = H r k)
    (hmid : ∀ r k, val_main_v103 (F := Ideal) x0 x1 x2 x3 x4 (ix2 r k)
      = Cert.Mlp.half (fun j k => x3 (ix3 8 j k)) (fun j => x4 (ix2 8 j)) (H r) k)
    (r : Fin 2097152) (j : Fin 16) :
    val_main_v110 (F := Ideal) x0 x1 x2 x3 x4 (ix2 r j)
      = Cert.Mlp.resBlock (fun j k => x3 (ix3 8 j k)) (fun j => x4 (ix2 8 j)) (fun j k => x3 (ix3 9 j k))
          (fun j => x4 (ix2 9 j)) (H r) j := by
  rw [val_main_v110_apply, val_main_v109_apply, val_main_v108_apply, val_main_v105_apply, val_main_v107_apply,
    val_main_v106_apply, val_main_v97_apply, val_main_v96_apply, val_main_call10_v0_apply, val_main_call10_cst_apply]
  simp only [val_main_v104_apply, val_main_v95_apply, val_main_v94_apply, Ideal.maximumf_def, Ideal.addf_def,
    Ideal.ofBits_def]
  have e1 : ∀ k : Fin 16, lidx_main_v105 (ix2 r j) k = ix2 r k := fun k => by ix_two
  have e2 : ∀ k : Fin 16, idx_main_v94 (idx_main_v95 (idx_main_v104 (ridx_main_v105 (ix2 r j) k))) = ix3 9 j k :=
    fun k => by ix_weight j, k
  have e3 : idx_main_v96 (idx_main_v97 (idx_main_v106 (idx_main_v107 (ix2 r j)))) = ix2 9 j := by ix_bias j
  simp only [e1, e2, e3, hmid, hin]
  rfl

/-! ## The head -/

/-- The head at (r, a): the affine layer of the 2 × 16 matrix on row r of the last block's result, with no clip. -/
theorem head (H : Fin 2097152 → Fin 16 → EReal)
    (hin : ∀ r k, val_main_v110 (F := Ideal) x0 x1 x2 x3 x4 (ix2 r k) = H r k) (r : Fin 2097152) (a : Fin 2) :
    val_main_v115 (F := Ideal) x0 x1 x2 x3 x4 x5 x6 (ix2 r a)
      = Cert.Mlp.fc (fun a k => x5 (ix2 a k)) (fun a => x6 (ix1 a)) (H r) a := by
  rw [val_main_v115_apply, val_main_v112_apply, val_main_v114_apply, val_main_v113_apply]
  simp only [val_main_v111_apply, Ideal.addf_def]
  have e1 : ∀ k : Fin 16, lidx_main_v112 (ix2 r a) k = ix2 r k := fun k => by ix_two
  have e2 : ∀ k : Fin 16, idx_main_v111 (ridx_main_v112 (ix2 r a) k) = ix2 a k := fun k => by ix_two
  have e3 : idx_main_v113 (idx_main_v114 (ix2 r a)) = ix1 a := funext fun d => by
    match d with
    | ⟨0, _⟩ => rfl
  simp only [e1, e2, e3, hin]
  rfl

/-! ## The whole reference -/

/-- The reference's result is the specification's network on every row of the batch: the eleven stages are chained
    from the first layer to the head, each read through the row function of the stage before it. -/
theorem ref_value :
    val_main_v115 (F := Ideal) x0 x1 x2 x3 x4 x5 x6 = Cert.Mlp.netArr x0 x1 x2 x3 x4 x5 x6 := by
  funext i
  obtain ⟨r, a, rfl⟩ : ∃ (r : Fin 2097152) (a : Fin 2), i = ix2 r a := ⟨i 0, i 1, eq_ix2 i⟩
  have h5 := first_layer x0 x1 x2
  have h19 := half_0 x0 x1 x2 x3 x4 _ h5
  have h26 := res_0 x0 x1 x2 x3 x4 _ h5 h19
  have h40 := half_1 x0 x1 x2 x3 x4 _ h26
  have h47 := res_1 x0 x1 x2 x3 x4 _ h26 h40
  have h61 := half_2 x0 x1 x2 x3 x4 _ h47
  have h68 := res_2 x0 x1 x2 x3 x4 _ h47 h61
  have h82 := half_3 x0 x1 x2 x3 x4 _ h68
  have h89 := res_3 x0 x1 x2 x3 x4 _ h68 h82
  have h103 := half_4 x0 x1 x2 x3 x4 _ h89
  have h110 := res_4 x0 x1 x2 x3 x4 _ h89 h103
  exact head x0 x1 x2 x3 x4 x5 x6 _ h110 r a

/-- Every weakly fair execution of the reference ends with its result array the specification's network of the
    argument arrays, and the seven arguments unchanged. -/
theorem ref_run (m : (ℓ : Loc nD τ sig) → Buf (Elt Ideal) ℓ) (ρ : Dev nD → PrngReg) :
    θ_run Cert.ReferenceIdeal.defs (onTc (τ := Cert.ReferenceIdeal.τ) (Cert.ReferenceIdeal.main (F := Ideal)))
      ⟨m, fun _ => 0, ρ⟩ fun r => ∀ c : Dev nD,
        r.2.mem ((c.tc : Thread nD τ).loc main_v115)
          = Cert.Mlp.netArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run Cert.ReferenceIdeal.defs _ _).mono
    (fun _ h c => ⟨(h c).1.trans ((val_main_v115_eq (F := Ideal) m c).trans (ref_value _ _ _ _ _ _ _)), (h c).2⟩)
    (Cert.ReferenceIdeal.Value.run (F := Ideal) m ρ)

end Cert.RefNet

end
-- ==== Proof.lean ====
/-
  The certificate of a small multilayer perceptron computed sixteen rows at a time.

  THE TWO PROGRAMS.  The reference sends every row of a 2097152 × 4 batch through  max (W₁ x + b₁, 0) , five residual
  blocks  h ↦ max (W₂ᵢ₊₁ · max (W₂ᵢ h + b₂ᵢ, 0) + b₂ᵢ₊₁ + h, 0)  on sixteen features, and the head  W_o h + b_o .  The
  kernel packs sixteen consecutive rows side by side into one row of lanes and replaces every weight matrix W by the
  block-diagonal matrix  I₁₆ ⊗ Wᵀ  (the identity mask times the transposed weight, built on the host before the call,
  the head's padded with zero columns to 128 lanes) and every bias by its sixteen-fold tiling; one matrix product on the
  packed row then computes the sixteen small products at once.  After the call the host keeps the first 32 lanes and
  unpacks them.

  WHY THEY AGREE over the extended reals.  In the packed product every term that pairs a lane of row group p' with a
  column of row group p ≠ p' is a product with the mask's exact zero, and  0 · y = y · 0 = 0  for every extended real
  y, so the 256-term (64-term) sum at a column of group p is the 16-term (4-term) sum of group p alone: the small
  layer of that one row (sum_blockdiag, packed_dense).  Changes of float format are the identity here.  So
  both programs compute, row by row, ONE function of the seven arguments — Spec.netArr — the kernel by
  Body.body_apply on each block, the blocks covering the result array (KernelValue), the reference by its run read
  one layer at a time (RefNet).  No finiteness of the inputs is needed, and the precondition is never opened.

  The three frame conjuncts are the generated frames (the reference's its generated run with the result dropped);
  the kernel's idealization rewrote nothing, so the conjunct relating it to the kernel is trivial.
-/
import proofs.«155588_j40321152975542_2_alg».proof.Defs
import proofs.«155588_j40321152975542_2_alg».proof.Proof.Gen.Kernel
import proofs.«155588_j40321152975542_2_alg».proof.Proof.Gen.Kernel.Skeleton
import proofs.«155588_j40321152975542_2_alg».proof.Proof.Gen.Kernel.Launch
import proofs.«155588_j40321152975542_2_alg».proof.Proof.Gen.Kernel.Points
import proofs.«155588_j40321152975542_2_alg».proof.Proof.Gen.Kernel.Frame
import proofs.«155588_j40321152975542_2_alg».proof.Proof.Gen.KernelIdeal
import proofs.«155588_j40321152975542_2_alg».proof.Proof.Gen.KernelIdeal.Skeleton
import proofs.«155588_j40321152975542_2_alg».proof.Proof.Gen.KernelIdeal.Launch
import proofs.«155588_j40321152975542_2_alg».proof.Proof.Gen.KernelIdeal.Points
import proofs.«155588_j40321152975542_2_alg».proof.Proof.Gen.KernelIdeal.Frame
import proofs.«155588_j40321152975542_2_alg».proof.Proof.Gen.ReferenceIdeal
import proofs.«155588_j40321152975542_2_alg».proof.Proof.Gen.ReferenceIdeal.Run
import proofs.«155588_j40321152975542_2_alg».proof.Proof.Gen.ReferenceIdeal.Read
import proofs.«155588_j40321152975542_2_alg».proof.Proof.Gen.Pre_finite_inputs
import proofs.«155588_j40321152975542_2_alg».proof.Proof.KernelValue
import proofs.«155588_j40321152975542_2_alg».proof.Proof.HostArrays
import proofs.«155588_j40321152975542_2_alg».proof.Proof.RefNet
import Idealize.ShloMosaic.Adequacy
import Idealize.ShloMosaic.Init

noncomputable section

namespace Cert.Proof

open Idealize.ShloMosaic Idealize.SL.Sem

/-- The staged arrays are the packed input, the block-diagonal weights and the tiled biases, entry by entry. -/
theorem hostFacts (m : (ℓ : Loc Cert.KernelIdeal.nD Cert.KernelIdeal.τ Cert.KernelIdeal.sig) → Buf (Elt Ideal) ℓ) (c : Dev Cert.KernelIdeal.nD) :
    Cert.KernelIdeal.KValue.HostFacts m c where
  x2 := fun R p k => Cert.KernelIdeal.HostArrays.x2 m c R p k
  w1 := fun p' k p j => Cert.KernelIdeal.HostArrays.w1 m c p' p k j
  b1 := fun p j => Cert.KernelIdeal.HostArrays.b1 m c p j
  wh := fun l p' k p j => Cert.KernelIdeal.HostArrays.wh m c l p' p k j
  bh := fun l p j => Cert.KernelIdeal.HostArrays.bh m c l p j
  wo := fun p' k p a => Cert.KernelIdeal.HostArrays.wo m c p' p k a
  bo := fun p a => Cert.KernelIdeal.HostArrays.bo m c p a

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the network of the seven arguments, which agree. -/
theorem algebraic : Cert.algebraic_KernelIdeal_ReferenceIdeal := by
  intro m ρ m' ρ' _ hagree
  refine ⟨_, Cert.KernelIdeal.KValue.kernel_run (m := m) ρ (fun c => hostFacts m c), ?_⟩
  refine (θ_run Cert.ReferenceIdeal.defs _ _).mono (fun _ h c => ⟨(h c).1.trans ?_, (h c).2⟩) (Cert.RefNet.ref_run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
